-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x64 : Shape := ⟨2, ![512, 64]⟩
abbrev S64x64 : Shape := ⟨2, ![64, 64]⟩
abbrev S64 : Shape := ⟨1, ![64]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x64 : S_.BroadcastsInDim S512x64 (![] : Fin 0 → Fin S512x64.rank)
  reducesTo_S512x64_S_d0_1 : S512x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S10000x512 .f32) (main_arg1 : FVec F S10000x10000 .f32) (main_arg2 : FVec F S512x64 .f32) (main_arg3 : FVec F S64x64 .f32) (main_arg4 : FVec F S64 .f32) (main_arg5 : FVec F S64x64 .f32) (main_arg6 : FVec F S64 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S10000x512 : Shape := ⟨2, ![10000, 512]⟩
abbrev S10000x10000 : Shape := ⟨2, ![10000, 10000]⟩
abbrev S512x64 : Shape := ⟨2, ![512, 64]⟩
abbrev S64x64 : Shape := ⟨2, ![64, 64]⟩
abbrev S64 : Shape := ⟨1, ![64]⟩
abbrev S1x64 : Shape := ⟨2, ![1, 64]⟩
abbrev S10000x64 : Shape := ⟨2, ![10000, 64]⟩
abbrev S2000x512 : Shape := ⟨2, ![2000, 512]⟩
abbrev S400x10000 : Shape := ⟨2, ![400, 10000]⟩
abbrev S400x64 : Shape := ⟨2, ![400, 64]⟩
abbrev S2000x64 : Shape := ⟨2, ![2000, 64]⟩

abbrev nBuf : Space → Nat
  | .hbm => 10
  | .vmem => 13
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x64, .f32⟩
  | .hbm, ⟨8, _⟩ => ⟨S1x64, .f32⟩
  | .hbm, ⟨9, _⟩ => ⟨S10000x64, .f32⟩
  | .local _ .vmem, ⟨0, _⟩ => ⟨S2000x512, .f32⟩
  | .local _ .vmem, ⟨1, _⟩ => ⟨S2000x512, .f32⟩
  | .local _ .vmem, ⟨2, _⟩ => ⟨S400x10000, .f32⟩
  | .local _ .vmem, ⟨3, _⟩ => ⟨S400x10000, .f32⟩
  | .local _ .vmem, ⟨4, _⟩ => ⟨S512x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S400x64, .f32⟩
  | .local _ .vmem, ⟨10, _⟩ => ⟨S400x64, .f32⟩
  | .local _ .vmem, ⟨11, _⟩ => ⟨S10000x64, .f32⟩
  | .local _ .vmem, ⟨12, _⟩ => ⟨S10000x64, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![55], ![false]⟩

def k0_cond1 (i : grid0.Coords) : BitVec 1 :=
  let arg0 : BitVec 32 := BitVec.ofNat 32 (i 0).val
  let c5_i32 : BitVec 32 := 5#32
  let v0 : BitVec 1 := Scalar.cmpi .slt arg0 c5_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c2000_i32 : BitVec 32 := 2000#32
  let v18 : BitVec 32 := Scalar.muli arg0 c2000_i32
  let v19 : Index := Scalar.indexCast v18
  let c0_11 : Index := 0#32
  ![v19.toNat, 0]
def k0_cond2 (i : grid0.Coords) : BitVec 1 :=
  let arg0 : BitVec 32 := BitVec.ofNat 32 (i 0).val
  let c5_i32_0 : BitVec 32 := 5#32
  let v3 : BitVec 1 := Scalar.cmpi .sge arg0 c5_i32_0
  let c30_i32 : BitVec 32 := 30#32
  let v4 : BitVec 1 := Scalar.cmpi .slt arg0 c30_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off2 (i : grid0.Coords) : Fin 2 → Nat :=
  let arg0 : BitVec 32 := BitVec.ofNat 32 (i 0).val
  let c5_i32_13 : BitVec 32 := 5#32
  let v22 : BitVec 32 := Scalar.subi arg0 c5_i32_13
  let c400_i32 : BitVec 32 := 400#32
  let v23 : BitVec 32 := Scalar.muli v22 c400_i32
  let v24 : Index := Scalar.indexCast v23
  let c0_14 : Index := 0#32
  ![v24.toNat, 0]
def k0_cond3 (i : grid0.Coords) : BitVec 1 :=
  let arg0 : BitVec 32 := BitVec.ofNat 32 (i 0).val
  let c30_i32_2 : BitVec 32 := 30#32
  let v8 : BitVec 1 := Scalar.cmpi .sge arg0 c30_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c5_i32 : BitVec 32 := 5#32
  let v0 : BitVec 1 := Scalar.cmpi .slt arg0 c5_i32
  let c0_i32 : BitVec 32 := 0#32
  let v1 : BitVec 32 := Scalar.select v0 arg0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c5_i32 : BitVec 32 := 5#32
  let v0 : BitVec 1 := Scalar.cmpi .slt arg0 c5_i32
  let c30_i32 : BitVec 32 := 30#32
  let v1 : BitVec 1 := Scalar.cmpi .slt arg0 c30_i32
  let c5_i32_0 : BitVec 32 := 5#32
  let v2 : BitVec 32 := Scalar.subi arg0 c5_i32_0
  let c5_i32_1 : BitVec 32 := 5#32
  let v3 : BitVec 32 := Scalar.subi arg0 c5_i32_1
  let c25_i32 : BitVec 32 := 25#32
  let v4 : BitVec 32 := Scalar.subi v3 c25_i32
  let v5 : BitVec 32 := Scalar.select v1 v2 v4
  let c0_i32 : BitVec 32 := 0#32
  let v6 : BitVec 32 := Scalar.select v0 c0_i32 v5
  let c0_i32_2 : BitVec 32 := 0#32
  let c0_i32_3 : BitVec 32 := 0#32
  ![v6.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c30_i32 : BitVec 32 := 30#32
  let v0 : BitVec 1 := Scalar.cmpi .slt arg0 c30_i32
  let c5_i32 : BitVec 32 := 5#32
  let v1 : BitVec 32 := Scalar.subi arg0 c5_i32
  let c25_i32 : BitVec 32 := 25#32
  let v2 : BitVec 32 := Scalar.subi v1 c25_i32
  let c0_i32 : BitVec 32 := 0#32
  let v3 : BitVec 32 := Scalar.select v0 c0_i32 v2
  let c0_i32_0 : BitVec 32 := 0#32
  let c0_i32_1 : BitVec 32 := 0#32
  ![v3.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  inb_S512x64_S512x64_0_0 : ∀ a, (![0, 0] : Fin 2 → Nat) a + S512x64.size a ≤ S512x64.size a
  h_S512x64 : 0 < S512x64.numel
  inb_S64x64_S64x64_0_0 : ∀ a, (![0, 0] : Fin 2 → Nat) a + S64x64.size a ≤ S64x64.size a
  h_S64x64 : 0 < S64x64.numel
  h_S2000x64 : 0 < S2000x64.numel
  shapeCasts_S2000x64_S2000x64 : S2000x64.ShapeCasts S2000x64
  inb_S400x10000_S400x10000_0_0 : ∀ a, (![0, 0] : Fin 2 → Nat) a + S400x10000.size a ≤ S400x10000.size a
  h_S400x10000 : 0 < S400x10000.numel
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  h_S400x64 : 0 < S400x64.numel
  shapeCasts_S400x64_S400x64 : S400x64.ShapeCasts S400x64
  inb_S400x64_S400x64_0_0 : ∀ a, (![0, 0] : Fin 2 → Nat) a + S400x64.size a ≤ S400x64.size a
  dot_S2000x512_S512x64_S2000x64_1_0_0_1_n_n_wf : DotDims.WF S2000x512 S512x64 S2000x64 [1] [0] [0] [1] [] []
  dot_S2000x64_S64x64_S2000x64_1_0_0_1_n_n_wf : DotDims.WF S2000x64 S64x64 S2000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  hrank0 : 0 < grid0.rank
  k0_off1_inb : ∀ i : grid0.Coords, ∀ (k0_h1 : k0_cond1 i = 1#1), ∀ a, (k0_off1 i) a + S2000x64.size a ≤ S10000x64.size a
  k0_off2_inb : ∀ i : grid0.Coords, ∀ (k0_h2 : k0_cond2 i = 1#1), ∀ a, (k0_off2 i) a + S400x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x64.size a ≤ S10000x64.size a
  hwx0_7 : ∀ i : grid0.Coords, EltTy.bits .f32 = 32 ∨ (Rect.block (s := S10000x64) S400x64.size (cc0_transform_7 i) (hinb0_7 i)).WholeWords (EltTy.packing .f32)

variable [Facts₀]

def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond3 i == 1#1) | ⟨_ + 8, h⟩ => absurd h (Nat.not_lt.2 (Nat.le_add_left _ _))

class Facts : Prop extends Facts₀ where

variable [Facts]
-- ==== ReferenceIdeal.lean ====
abbrev S10000x512 : Shape := ⟨2, ![10000, 512]⟩
abbrev S10000x10000 : Shape := ⟨2, ![10000, 10000]⟩
abbrev S512x64 : Shape := ⟨2, ![512, 64]⟩
abbrev S64x64 : Shape := ⟨2, ![64, 64]⟩
abbrev S64 : Shape := ⟨1, ![64]⟩
abbrev S10000x64 : Shape := ⟨2, ![10000, 64]⟩
abbrev S_ : Shape := ⟨0, ![]⟩
abbrev S1x64 : Shape := ⟨2, ![1, 64]⟩

abbrev nBuf : Space → Nat
  | .hbm => 24
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S10000x64, .f32⟩
  | .hbm, ⟨8, _⟩ => ⟨S_, .f32⟩
  | .hbm, ⟨9, _⟩ => ⟨S10000x64, .f32⟩
  | .hbm, ⟨10, _⟩ => ⟨S10000x64, .f32⟩
  | .hbm, ⟨11, _⟩ => ⟨S10000x64, .f32⟩
  | .hbm, ⟨12, _⟩ => ⟨S10000x64, .f32⟩
  | .hbm, ⟨13, _⟩ => ⟨S1x64, .f32⟩
  | .hbm, ⟨14, _⟩ => ⟨S10000x64, .f32⟩
  | .hbm, ⟨15, _⟩ => ⟨S10000x64, .f32⟩
  | .hbm, ⟨16, _⟩ => ⟨S_, .f32⟩
  | .hbm, ⟨17, _⟩ => ⟨S10000x64, .f32⟩
  | .hbm, ⟨18, _⟩ => ⟨S10000x64, .f32⟩
  | .hbm, ⟨19, _⟩ => ⟨S10000x64, .f32⟩
  | .hbm, ⟨20, _⟩ => ⟨S10000x64, .f32⟩
  | .hbm, ⟨21, _⟩ => ⟨S1x64, .f32⟩
  | .hbm, ⟨22, _⟩ => ⟨S10000x64, .f32⟩
  | .hbm, ⟨23, _⟩ => ⟨S10000x64, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_cst : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x512_S512x64_S10000x64_1_0_0_1_n_n_wf : DotDims.WF S10000x512 S512x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.KernelBody.lean ====
/-
  The kernel body of `Kernel` at a symbolic grid point, in its three phases. The grid has 55 points; the body at point `s`:
  for `s < 5` it multiplies block `s` (2000 rows) of X by W0, takes the positive part, multiplies by W1 and stores the
  result into rows `2000 s … 2000 s + 1999` of the first scratch array; for `5 ≤ s < 30` it multiplies block `s - 5` (400
  rows) of A by the whole first scratch array, adds b1, takes the positive part, multiplies by W2 and stores the result
  into rows `400 (s - 5) …` of the second scratch array; for `30 ≤ s` it multiplies block `s - 30` of A by the whole
  second scratch array, adds b2 and stores the result into the output's staging buffer. Each phase is proved once, at any
  point of its kind, the kind given by the three branch conditions. A store into a scratch
  array covers only some of its rows: what the array holds afterwards is stated as a relation (`Upd`) — the stored
  payload on the rectangle, the old contents elsewhere.
-/
import proofs.«125068_g44581760532749_cont_8to1c4_205_3_alg».proof.Proof.Gen.Kernel
import proofs.«125068_g44581760532749_cont_8to1c4_205_3_alg».proof.Proof.Gen.Kernel.Skeleton
import proofs.«125068_g44581760532749_cont_8to1c4_205_3_alg».proof.Proof.Gen.Kernel.Launch
import Idealize.ShloMosaic.Lib.Writes
import Idealize.ShloMosaic.Lib.Pipeline.FrameBody
import Idealize.ShloMosaic.Lib.Pipeline.Routed
import Idealize.ShloMosaic.Lib.Tactic

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra of the launch theorem used: the pipeline library's rounds copy and the counters. -/
abbrev UC : Type := Pipeline.UC sig nD τ
local notation "𝕄" => MT nD τ sig Unit (Elt F) ℕ UC ℕ

/-- The two scratch arrays, whole: (10000, 64) each. -/
abbrev s0M : Memref sig .tc .vmem S10000x64 .f32 := Memref.whole cc0_scratch0
abbrev s1M : Memref sig .tc .vmem S10000x64 .f32 := Memref.whole cc0_scratch1

/-- The rows a phase-one point stores, and the rows a phase-two point stores. -/
abbrev rect1 (i : grid0.Coords) (h : k0_cond1 i = 1#1) : Rect S10000x64 :=
  Rect.unit (s := S10000x64) (k0_off1 i) S2000x64.size (k0_off1_inb i h)
abbrev rect2 (i : grid0.Coords) (h : k0_cond2 i = 1#1) : Rect S10000x64 :=
  Rect.unit (s := S10000x64) (k0_off2 i) S400x64.size (k0_off2_inb i h)

/-- Contents `a'` are contents `a` with payload `w` stored through rectangle `r`. -/
def Upd {s : Shape} (r : Rect s) (w : r.shape.Idx → Elt F .f32) (a a' : s.Idx → Elt F .f32) : Prop :=
  (∀ x, a' (r.emb x) = w x) ∧ ∀ y, y ∉ r.set → a' y = a y

omit [FloatOps F] in
theorem upd_of_writes {sp : Space} {s : Shape} (v : View sig .tc sp s .f32) (f : v.ty.Contents (Elt F)) (r : Rect s) (w : r.shape.Idx → Elt F .f32) :
    Upd r w (v.read (Elt F) f) (v.read (Elt F) (v.writes (Elt F) f [⟨r, w⟩])) :=
  ⟨fun x => View.read_writes_cons_emb v f r w [] x,
   fun y hy => View.read_writes_apply_of_forall_not_mem v f y [⟨r, w⟩] (fun p hp => by
     rw [List.mem_singleton] at hp; subst hp; exact hy)⟩

/-- The whole-block rectangles the loads and the output's store go through. -/
abbrev rX : Rect S2000x512 := Rect.unit (s := S2000x512) ![0, 0] S2000x512.size inb_S2000x512_S2000x512_0_0
abbrev rA : Rect S400x10000 := Rect.unit (s := S400x10000) ![0, 0] S400x10000.size inb_S400x10000_S400x10000_0_0
abbrev rW0 : Rect S512x64 := Rect.unit (s := S512x64) ![0, 0] S512x64.size inb_S512x64_S512x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0
abbrev rS : Rect S10000x64 := Rect.unit (s := S10000x64) ![0, 0] S10000x64.size inb_S10000x64_S10000x64_0_0
abbrev rO : Rect S400x64 := Rect.unit (s := S400x64) ![0, 0] S400x64.size inb_S400x64_S400x64_0_0

/-- What a phase-one point stores: `relu(X_blk · W0) · W1`. -/
abbrev pay1v (x0 : Vec F S2000x512 .f32) (x2 : Vec F S512x64 .f32) (x3 : Vec F S64x64 .f32) : Vec F S2000x64 .f32 :=
  k0_pay1 (View.ld x0 rX) (View.ld x2 rW0) (View.ld x3 rW)
/-- What a phase-two point stores: `relu(A_blk · P1 + b1) · W2`. -/
abbrev pay2v (x1 : Vec F S400x10000 .f32) (a : Vec F S10000x64 .f32) (x4 : Vec F S1x64 .f32) (x5 : Vec F S64x64 .f32) : Vec F S400x64 .f32 :=
  k0_pay2 (View.ld x1 rA) (View.ld a rS) (View.ld x4 rB) (View.ld x5 rW)
/-- The output block a phase-three point stores: `A_blk · P2 + b2`, as the canon of its one whole-block store. -/
abbrev outv (x1 : Vec F S400x10000 .f32) (b : Vec F S10000x64 .f32) (x6 : Vec F S1x64 .f32) : Vec F S400x64 .f32 :=
  View.canon [⟨rO, k0_pay3 (View.ld x1 rA) (View.ld b rS) (View.ld x6 rB)⟩]

omit [FloatOps F] in
theorem coverO (p : Vec F S400x64 .f32) (y : S400x64.Idx) : ∃ pc ∈ ([⟨rO, p⟩] : List (View.Piece (Elt F) S400x64 .f32)), y ∈ pc.1.set :=
  View.cover_of_tiled [⟨rO, p⟩] S400x64.size (by rfl) y

section Runs

variable (c : Dev nD) (t : Fin cfg0.N)
  (M0 : Memref sig .tc .vmem S2000x512 .f32) (h0 : M0.IsWhole) (M1 : Memref sig .tc .vmem S400x10000 .f32) (h1 : M1.IsWhole)
  (M2 : Memref sig .tc .vmem S512x64 .f32) (h2 : M2.IsWhole) (M3 : Memref sig .tc .vmem S64x64 .f32) (h3 : M3.IsWhole)
  (M4 : Memref sig .tc .vmem S1x64 .f32) (h4 : M4.IsWhole) (M5 : Memref sig .tc .vmem S64x64 .f32) (h5 : M5.IsWhole)
  (M6 : Memref sig .tc .vmem S1x64 .f32) (h6 : M6.IsWhole) (M7 : Memref sig .tc .vmem S400x64 .f32) (h7 : M7.IsWhole)

local notation "BODY" => cc0__gcn_body (grid0.coords t) M0 h0 M1 h1 M2 h2 M3 h3 M4 h4 M5 h5 M6 h6 M7 h7
  (Memref.whole cc0_scratch0) (Memref.isWhole_whole _) (Memref.whole cc0_scratch1) (Memref.isWhole_whole _)

/-- A phase-one point: X's block, W0 and W1 are read, the first scratch array gets the payload on the point's rows. -/
theorem run1 (hc1 : k0_cond1 (grid0.coords t) = 1#1) (hc2 : ¬ k0_cond2 (grid0.coords t) = 1#1) (hc3 : ¬ k0_cond3 (grid0.coords t) = 1#1)
    (x0 : Vec F S2000x512 .f32) (x2 : Vec F S512x64 .f32) (x3 : Vec F S64x64 .f32) (a : Vec F S10000x64 .f32)
    (Q : PUnit → sProp 𝕄) :
    iprop(owns (c : Thread nD τ) M0 fullShare x0 ∗ owns (c : Thread nD τ) M2 fullShare x2 ∗ owns (c : Thread nD τ) M3 fullShare x3
        ∗ owns (c : Thread nD τ) s0M fullShare a
      ∗ (iprop(owns (c : Thread nD τ) M0 fullShare x0 ∗ owns (c : Thread nD τ) M2 fullShare x2 ∗ owns (c : Thread nD τ) M3 fullShare x3
          ∗ ∃ a', ⌜Upd (rect1 (grid0.coords t) hc1) (pay1v x0 x2 x3) a a'⌝ ∗ owns (c : Thread nD τ) s0M fullShare a') -∗ Q ⟨⟩))
      ⊢ wp frame (wpE (defs₀ (F := F)) Variants.none c none) Set.univ BODY Q := by
  unfold owns
  iintro ⟨⟨%f0, %hf0, H0⟩, ⟨%f2, %hf2, H2⟩, ⟨%f3, %hf3, H3⟩, ⟨%fa, %hfa, Ha⟩, Hk⟩
  subst hf0 hf2 hf3 hfa
  sl_exec! (disch := assumption)
  sl_step
  iapply Hk
  isplitl [H0]; · iexists f0; isplitr; (· ipureintro; rfl); iexact H0
  isplitl [H2]; · iexists f2; isplitr; (· ipureintro; rfl); iexact H2
  isplitl [H3]; · iexists f3; isplitr; (· ipureintro; rfl); iexact H3
  iexists _; isplitr; swap
  · iexists _; isplitr; swap; (· iexact Ha); ipureintro; rfl
  · ipureintro; exact upd_of_writes _ _ _ _

/-- A phase-two point: A's block, the first scratch array (whole), b1 and W2 are read, the second scratch array gets the
    payload on the point's rows. -/
theorem run2 (hc1 : ¬ k0_cond1 (grid0.coords t) = 1#1) (hc2 : k0_cond2 (grid0.coords t) = 1#1) (hc3 : ¬ k0_cond3 (grid0.coords t) = 1#1)
    (x1 : Vec F S400x10000 .f32) (x4 : Vec F S1x64 .f32) (x5 : Vec F S64x64 .f32) (a b : Vec F S10000x64 .f32)
    (Q : PUnit → sProp 𝕄) :
    iprop(owns (c : Thread nD τ) M1 fullShare x1 ∗ owns (c : Thread nD τ) M4 fullShare x4 ∗ owns (c : Thread nD τ) M5 fullShare x5
        ∗ owns (c : Thread nD τ) s0M fullShare a ∗ owns (c : Thread nD τ) s1M fullShare b
      ∗ (iprop(owns (c : Thread nD τ) M1 fullShare x1 ∗ owns (c : Thread nD τ) M4 fullShare x4 ∗ owns (c : Thread nD τ) M5 fullShare x5
          ∗ owns (c : Thread nD τ) s0M fullShare a
          ∗ ∃ b', ⌜Upd (rect2 (grid0.coords t) hc2) (pay2v x1 a x4 x5) b b'⌝ ∗ owns (c : Thread nD τ) s1M fullShare b') -∗ Q ⟨⟩))
      ⊢ wp frame (wpE (defs₀ (F := F)) Variants.none c none) Set.univ BODY Q := by
  unfold owns
  iintro ⟨⟨%f1, %hf1, H1⟩, ⟨%f4, %hf4, H4⟩, ⟨%f5, %hf5, H5⟩, ⟨%fa, %hfa, Ha⟩, ⟨%fb, %hfb, Hb⟩, Hk⟩
  subst hf1 hf4 hf5 hfa hfb
  sl_exec! (disch := assumption)
  sl_step
  iapply Hk
  isplitl [H1]; · iexists f1; isplitr; (· ipureintro; rfl); iexact H1
  isplitl [H4]; · iexists f4; isplitr; (· ipureintro; rfl); iexact H4
  isplitl [H5]; · iexists f5; isplitr; (· ipureintro; rfl); iexact H5
  isplitl [Ha]; · iexists fa; isplitr; (· ipureintro; rfl); iexact Ha
  iexists _; isplitr; swap
  · iexists _; isplitr; swap; (· iexact Hb); ipureintro; rfl
  · ipureintro; exact upd_of_writes _ _ _ _

/-- A phase-three point: A's block, the second scratch array (whole) and b2 are read, the output's staging buffer,
    whatever it held, gets the payload. -/
theorem run3 (hc1 : ¬ k0_cond1 (grid0.coords t) = 1#1) (hc2 : ¬ k0_cond2 (grid0.coords t) = 1#1) (hc3 : k0_cond3 (grid0.coords t) = 1#1)
    (x1 : Vec F S400x10000 .f32) (x6 : Vec F S1x64 .f32) (b : Vec F S10000x64 .f32)
    (Q : PUnit → sProp 𝕄) :
    iprop(owns (c : Thread nD τ) M1 fullShare x1 ∗ owns (c : Thread nD τ) M6 fullShare x6 ∗ (∃ d, owns (c : Thread nD τ) M7 fullShare d)
        ∗ owns (c : Thread nD τ) s1M fullShare b
      ∗ (iprop(owns (c : Thread nD τ) M1 fullShare x1 ∗ owns (c : Thread nD τ) M6 fullShare x6 ∗ owns (c : Thread nD τ) M7 fullShare (outv x1 b x6)
          ∗ owns (c : Thread nD τ) s1M fullShare b) -∗ Q ⟨⟩))
      ⊢ wp frame (wpE (defs₀ (F := F)) Variants.none c none) Set.univ BODY Q := by
  unfold owns
  iintro ⟨⟨%f1, %hf1, H1⟩, ⟨%f6, %hf6, H6⟩, ⟨%d7, %f7, %hf7, H7⟩, ⟨%fb, %hfb, Hb⟩, Hk⟩
  subst hf1 hf6 hfb
  sl_exec! (disch := assumption)
  sl_step
  iapply Hk
  isplitl [H1]; · iexists f1; isplitr; (· ipureintro; rfl); iexact H1
  isplitl [H6]; · iexists f6; isplitr; (· ipureintro; rfl); iexact H6
  isplitl [H7]; · iexists _; isplitr; swap; (· iexact H7); ipureintro; exact View.read_writes_eq_canon _ _ _ (coverO _)
  iexists fb; isplitr; (· ipureintro; rfl); iexact Hb

end Runs

end Cert.Proof.Kernel

end
-- ==== Proof.KernelRun.lean ====
/-
  The run of `Kernel`: the pipeline's proof data and the launch.
  The two scratch arrays are carried from point to point by the invariant: before point `k` the first holds, on its rows
  below `2000 · min k 5`, the array `P1 = relu(X · W0) · W1` (row block `s` computed from X's block `s`), and the second, on
  its rows below `400 · (min k 30 - 5)`, the array `P2 = relu(A · P1 + b1) · W2` (row block `j` from A's block `j`); nothing is
  said of the other rows (they hold what the arrays held at launch). From point 5 on the first array is all of `P1`, from
  point 30 on the second is all of `P2`, so the block a phase-three point stores into the output is stated in closed form.
  The output's window is idle at the points before 30 and written back at every point from 30 on.
-/
import proofs.«125068_g44581760532749_cont_8to1c4_205_3_alg».proof.Proof.KernelBody
import Idealize.ShloMosaic.Lib.Pipeline.Routed
import Idealize.ShloMosaic.Lib.ValueIdx
import proofs.«125068_g44581760532749_cont_8to1c4_205_3_alg».proof.Proof.Gen.Kernel.Frame
import proofs.«125068_g44581760532749_cont_8to1c4_205_3_alg».proof.Proof.Gen.Kernel.Points

noncomputable section

namespace Cert.Proof.Kernel

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost)

variable {F : FTy → Type} [FloatOps F]

local notation "𝕄" => MT nD τ sig Unit (Elt F) ℕ UC ℕ

/-! ## The kinds of point, the stores' rows, the output's schedule -/

theorem N55 : cfg0.N = 55 := N_0

theorem c1_iff : ∀ t : Fin cfg0.N, k0_cond1 (grid0.coords t) = 1#1 ↔ t.val < 5 :=
  (by decide +kernel : ∀ t : Fin grid0.N, k0_cond1 (grid0.coords t) = 1#1 ↔ t.val < 5)
theorem c2_iff : ∀ t : Fin cfg0.N, k0_cond2 (grid0.coords t) = 1#1 ↔ (5 ≤ t.val ∧ t.val < 30) :=
  (by decide +kernel : ∀ t : Fin grid0.N, k0_cond2 (grid0.coords t) = 1#1 ↔ (5 ≤ t.val ∧ t.val < 30))
theorem c3_iff : ∀ t : Fin cfg0.N, k0_cond3 (grid0.coords t) = 1#1 ↔ 30 ≤ t.val :=
  (by decide +kernel : ∀ t : Fin grid0.N, k0_cond3 (grid0.coords t) = 1#1 ↔ 30 ≤ t.val)
theorem off1_0 : ∀ t : Fin cfg0.N, k0_off1 (grid0.coords t) 0 = 2000 * t.val :=
  (by decide +kernel : ∀ t : Fin grid0.N, k0_off1 (grid0.coords t) 0 = 2000 * t.val)
theorem off1_1 : ∀ t : Fin cfg0.N, k0_off1 (grid0.coords t) 1 = 0 :=
  (by decide +kernel : ∀ t : Fin grid0.N, k0_off1 (grid0.coords t) 1 = 0)
theorem off2_0 : ∀ t : Fin cfg0.N, 5 ≤ t.val → k0_off2 (grid0.coords t) 0 = 400 * (t.val - 5) :=
  (by decide +kernel : ∀ t : Fin grid0.N, 5 ≤ t.val → k0_off2 (grid0.coords t) 0 = 400 * (t.val - 5))
theorem off2_1 : ∀ t : Fin cfg0.N, k0_off2 (grid0.coords t) 1 = 0 :=
  (by decide +kernel : ∀ t : Fin grid0.N, k0_off2 (grid0.coords t) 1 = 0)
theorem flush7_iff : ∀ t : Fin cfg0.N, (cfg0.win 7).flush t = true ↔ 30 ≤ t.val :=
  (by decide +kernel : ∀ t : Fin grid0.N, win0_7.flush t = true ↔ 30 ≤ t.val)

theorem idle7_of_c3 (t : Fin cfg0.N) (h : k0_cond3 (grid0.coords t) = 1#1) : idle0 7 (grid0.coords t) = false := by
  show (!(k0_cond3 (grid0.coords t) == 1#1)) = false; rw [show (k0_cond3 (grid0.coords t) == 1#1) = true from beq_iff_eq.mpr h]; rfl
theorem idle7_of_not_c3 (t : Fin cfg0.N) (h : ¬ k0_cond3 (grid0.coords t) = 1#1) : idle0 7 (grid0.coords t) = true := by
  show (!(k0_cond3 (grid0.coords t) == 1#1)) = true; rw [show (k0_cond3 (grid0.coords t) == 1#1) = false from beq_eq_false_iff_ne.mpr h]; rfl
theorem flush7_of_not_c3 (t : Fin cfg0.N) (h : ¬ k0_cond3 (grid0.coords t) = 1#1) : (cfg0.win 7).flush t = false :=
  Bool.eq_false_iff.mpr fun hf => h ((c3_iff t).mpr ((flush7_iff t).mp hf))

variable (m : (ℓ : Loc nD τ sig) → Buf (Elt F) ℓ) (ρ : Dev nD → PrngReg)

/-! ## The windows' blocks at a point, at their literal shapes -/

abbrev blkX (c : Dev nD) (t : Fin cfg0.N) : Vec F S2000x512 .f32 := iblk m c 0 t
abbrev blkA (c : Dev nD) (t : Fin cfg0.N) : Vec F S400x10000 .f32 := iblk m c 1 t
abbrev blkW0 (c : Dev nD) (t : Fin cfg0.N) : Vec F S512x64 .f32 := iblk m c 2 t
abbrev blkW1 (c : Dev nD) (t : Fin cfg0.N) : Vec F S64x64 .f32 := iblk m c 3 t
abbrev blkB1 (c : Dev nD) (t : Fin cfg0.N) : Vec F S1x64 .f32 := iblk m c 4 t
abbrev blkW2 (c : Dev nD) (t : Fin cfg0.N) : Vec F S64x64 .f32 := iblk m c 5 t
abbrev blkB2 (c : Dev nD) (t : Fin cfg0.N) : Vec F S1x64 .f32 := iblk m c 6 t

/-! ## What the scratch arrays end up holding -/

/-- The phase-one point that stores row `y 0` of the first scratch array, and the row's place in that point's block. -/
def pt1 (y : S10000x64.Idx) : Fin cfg0.N := ⟨(y 0).val / 2000, by have := idx2_lt0 y; have := N55; omega⟩
def loc1 (y : S10000x64.Idx) : S2000x64.Idx :=
  ix2 (n0 := 2000) (n1 := 64) ⟨(y 0).val % 2000, Nat.mod_lt _ (by decide)⟩ ⟨(y 1).val, idx2_lt1 y⟩
/-- The phase-two point that stores row `y 0` of the second scratch array, and the row's place in that point's block. -/
def pt2 (y : S10000x64.Idx) : Fin cfg0.N := ⟨5 + (y 0).val / 400, by have := idx2_lt0 y; have := N55; omega⟩
def loc2 (y : S10000x64.Idx) : S400x64.Idx :=
  ix2 (n0 := 400) (n1 := 64) ⟨(y 0).val % 400, Nat.mod_lt _ (by decide)⟩ ⟨(y 1).val, idx2_lt1 y⟩

/-- `P1`: row block `s` is what phase-one point `s` stores. -/
def P1 (c : Dev nD) : Vec F S10000x64 .f32 := fun y =>
  pay1v (blkX m c (pt1 y)) (blkW0 m c (pt1 y)) (blkW1 m c (pt1 y)) (loc1 y)
/-- `P2`: row block `j` is what phase-two point `5 + j` stores, the first scratch array then all of `P1`. -/
def P2 (c : Dev nD) : Vec F S10000x64 .f32 := fun y =>
  pay2v (blkA m c (pt2 y)) (P1 m c) (blkB1 m c (pt2 y)) (blkW2 m c (pt2 y)) (loc2 y)
/-- The output block a phase-three point stores. -/
def outAt (c : Dev nD) (t : Fin cfg0.N) : Vec F S400x64 .f32 := outv (blkA m c t) (P2 m c) (blkB2 m c t)

/-- The first scratch array before point `k`: `P1` on the rows stored so far. -/
def Inv1 (c : Dev nD) (k : ℕ) (a : Vec F S10000x64 .f32) : Prop :=
  ∀ y : S10000x64.Idx, (y 0).val < 2000 * min k 5 → a y = P1 m c y
/-- The second scratch array before point `k`: `P2` on the rows stored so far. -/
def Inv2 (c : Dev nD) (k : ℕ) (b : Vec F S10000x64 .f32) : Prop :=
  ∀ y : S10000x64.Idx, (y 0).val + 2000 < 400 * min k 30 → b y = P2 m c y

theorem inv1_zero (c : Dev nD) (a : Vec F S10000x64 .f32) : Inv1 m c 0 a := fun y hy => by simp at hy
theorem inv2_low (c : Dev nD) (k : ℕ) (hk : k ≤ 5) (b : Vec F S10000x64 .f32) : Inv2 m c k b := fun y hy => by
  have : min k 30 ≤ 5 := le_trans (min_le_left _ _) hk
  omega
theorem inv1_mono (c : Dev nD) (k k' : ℕ) (hk : 5 ≤ k) (a : Vec F S10000x64 .f32) (h : Inv1 m c k a) : Inv1 m c k' a := fun y hy =>
  h y (by have : min k 5 = 5 := min_eq_right hk; have : min k' 5 ≤ 5 := min_le_right _ _; omega)
theorem inv2_mono (c : Dev nD) (k k' : ℕ) (hk : 30 ≤ k) (b : Vec F S10000x64 .f32) (h : Inv2 m c k b) : Inv2 m c k' b := fun y hy =>
  h y (by have : min k 30 = 30 := min_eq_right hk; have : min k' 30 ≤ 30 := min_le_right _ _; omega)
theorem inv1_full (c : Dev nD) (k : ℕ) (hk : 5 ≤ k) (a : Vec F S10000x64 .f32) (h : Inv1 m c k a) : a = P1 m c :=
  funext fun y => h y (by have : min k 5 = 5 := min_eq_right hk; have := idx2_lt0 y; omega)
theorem inv2_full (c : Dev nD) (k : ℕ) (hk : 30 ≤ k) (b : Vec F S10000x64 .f32) (h : Inv2 m c k b) : b = P2 m c :=
  funext fun y => h y (by have : min k 30 = 30 := min_eq_right hk; have := idx2_lt0 y; omega)

/-- A phase-one point extends the rows of the first scratch array that hold `P1` by its block. -/
theorem inv1_step (c : Dev nD) (t : Fin cfg0.N) (hc1 : k0_cond1 (grid0.coords t) = 1#1) (a a' : Vec F S10000x64 .f32)
    (hI : Inv1 m c t.val a)
    (hU : Upd (rect1 (grid0.coords t) hc1) (pay1v (blkX m c t) (blkW0 m c t) (blkW1 m c t)) a a') : Inv1 m c (t.val + 1) a' := by
  have ht : t.val < 5 := (c1_iff t).mp hc1
  intro y hy
  by_cases hm : y ∈ (rect1 (grid0.coords t) hc1).set
  · obtain ⟨x, rfl⟩ := (rect1 (grid0.coords t) hc1).exists_idx_of_mem hm
    have e0 : (((rect1 (grid0.coords t) hc1).idx x) 0).val = 2000 * t.val + (x 0).val := by
      show k0_off1 (grid0.coords t) 0 + 1 * (x 0).val = _; rw [off1_0]; omega
    have e1 : (((rect1 (grid0.coords t) hc1).idx x) 1).val = (x 1).val := by
      show k0_off1 (grid0.coords t) 1 + 1 * (x 1).val = _; rw [off1_1]; omega
    have hx0 : (x 0).val < 2000 := (x 0).isLt
    have hp : pt1 ((rect1 (grid0.coords t) hc1).idx x) = t := Fin.ext (by show _ / 2000 = t.val; rw [e0]; omega)
    have hl : loc1 ((rect1 (grid0.coords t) hc1).idx x) = x := funext fun d => match d with
      | ⟨0, _⟩ => Fin.ext (by show _ % 2000 = (x 0).val; rw [e0]; omega)
      | ⟨1, _⟩ => Fin.ext (by show _ = (x 1).val; exact e1)
    refine (hU.1 x).trans ?_
    unfold P1
    rw [hp, hl]
  · rw [hU.2 y hm]
    apply hI
    have hlt : (y 0).val < 2000 * t.val := by
      by_contra hge
      apply hm
      rw [Rect.mem_set_unit]
      intro d
      match d with
      | ⟨0, _⟩ =>
        show k0_off1 (grid0.coords t) 0 ≤ (y 0).val ∧ (y 0).val < k0_off1 (grid0.coords t) 0 + 2000
        rw [off1_0]; have : min (t.val + 1) 5 = t.val + 1 := min_eq_left (by omega); omega
      | ⟨1, _⟩ =>
        show k0_off1 (grid0.coords t) 1 ≤ (y 1).val ∧ (y 1).val < k0_off1 (grid0.coords t) 1 + 64
        rw [off1_1]; have := idx2_lt1 y; omega
    have : min t.val 5 = t.val := min_eq_left (by omega)
    omega

/-- A phase-two point extends the rows of the second scratch array that hold `P2` by its block. -/
theorem inv2_step (c : Dev nD) (t : Fin cfg0.N) (hc2 : k0_cond2 (grid0.coords t) = 1#1) (b b' : Vec F S10000x64 .f32)
    (hI : Inv2 m c t.val b)
    (hU : Upd (rect2 (grid0.coords t) hc2) (pay2v (blkA m c t) (P1 m c) (blkB1 m c t) (blkW2 m c t)) b b') : Inv2 m c (t.val + 1) b' := by
  have ht : 5 ≤ t.val ∧ t.val < 30 := (c2_iff t).mp hc2
  intro y hy
  by_cases hm : y ∈ (rect2 (grid0.coords t) hc2).set
  · obtain ⟨x, rfl⟩ := (rect2 (grid0.coords t) hc2).exists_idx_of_mem hm
    have e0 : (((rect2 (grid0.coords t) hc2).idx x) 0).val = 400 * (t.val - 5) + (x 0).val := by
      show k0_off2 (grid0.coords t) 0 + 1 * (x 0).val = _; rw [off2_0 t ht.1]; omega
    have e1 : (((rect2 (grid0.coords t) hc2).idx x) 1).val = (x 1).val := by
      show k0_off2 (grid0.coords t) 1 + 1 * (x 1).val = _; rw [off2_1]; omega
    have hx0 : (x 0).val < 400 := (x 0).isLt
    have hp : pt2 ((rect2 (grid0.coords t) hc2).idx x) = t := Fin.ext (by show 5 + _ / 400 = t.val; rw [e0]; omega)
    have hl : loc2 ((rect2 (grid0.coords t) hc2).idx x) = x := funext fun d => match d with
      | ⟨0, _⟩ => Fin.ext (by show _ % 400 = (x 0).val; rw [e0]; omega)
      | ⟨1, _⟩ => Fin.ext (by show _ = (x 1).val; exact e1)
    refine (hU.1 x).trans ?_
    unfold P2
    rw [hp, hl]
  · rw [hU.2 y hm]
    apply hI
    have hlt : (y 0).val < 400 * (t.val - 5) := by
      by_contra hge
      apply hm
      rw [Rect.mem_set_unit]
      intro d
      match d with
      | ⟨0, _⟩ =>
        show k0_off2 (grid0.coords t) 0 ≤ (y 0).val ∧ (y 0).val < k0_off2 (grid0.coords t) 0 + 400
        rw [off2_0 t ht.1]; have : min (t.val + 1) 30 = t.val + 1 := min_eq_left (by omega); omega
      | ⟨1, _⟩ =>
        show k0_off2 (grid0.coords t) 1 ≤ (y 1).val ∧ (y 1).val < k0_off2 (grid0.coords t) 1 + 64
        rw [off2_1]; have := idx2_lt1 y; omega
    have : min t.val 30 = t.val := min_eq_left (by omega)
    omega

/-! ## The proof data -/

/-- The invariant before point `k`: the two scratch arrays at contents meeting `Inv1`, `Inv2`; the generator register at anything. -/
def Φv (c : Dev nD) (k : Fin (cfg0.N + 1)) : sProp 𝕄 :=
  iprop((∃ a, ⌜Inv1 m c k.val a⌝ ∗ owns (c : Thread nD τ) s0M fullShare a)
    ∗ (∃ b, ⌜Inv2 m c k.val b⌝ ∗ owns (c : Thread nD τ) s1M fullShare b) ∗ ∃ r, prngReg c r)

def dats (_ : Fin 1) (c : Dev nD) : Dat τ (Elt F) Unit ℕ UC ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ k := Φv m c k
  q _ := fullShare
  owed _ := 0

abbrev 𝒱₀ : Variants := Variants.none
/-- No semaphore of the kernel's own. -/
abbrev osem : Fin 0 → SemLoc sig := fun k => k.elim0

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans
    (by unfold Dat.fetched Dat.blockOf iblk; rfl)
theorem after_0 (c : Dev nD) (t : Fin cfg0.N) : (dats m 0 c).after 0 t = iblk m c 0 t := rfl
theorem idle_0 (t : Fin cfg0.N) : idle0 0 (grid0.coords t) = false := rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans
    (by unfold Dat.fetched Dat.blockOf iblk; rfl)
theorem after_1 (c : Dev nD) (t : Fin cfg0.N) : (dats m 0 c).after 1 t = iblk m c 1 t := rfl
theorem idle_1 (t : Fin cfg0.N) : idle0 1 (grid0.coords t) = false := rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans
    (by unfold Dat.fetched Dat.blockOf iblk; rfl)
theorem after_2 (c : Dev nD) (t : Fin cfg0.N) : (dats m 0 c).after 2 t = iblk m c 2 t := rfl
theorem idle_2 (t : Fin cfg0.N) : idle0 2 (grid0.coords t) = false := rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans
    (by unfold Dat.fetched Dat.blockOf iblk; rfl)
theorem after_3 (c : Dev nD) (t : Fin cfg0.N) : (dats m 0 c).after 3 t = iblk m c 3 t := rfl
theorem idle_3 (t : Fin cfg0.N) : idle0 3 (grid0.coords t) = false := rfl
theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans
    (by unfold Dat.fetched Dat.blockOf iblk; rfl)
theorem after_4 (c : Dev nD) (t : Fin cfg0.N) : (dats m 0 c).after 4 t = iblk m c 4 t := rfl
theorem idle_4 (t : Fin cfg0.N) : idle0 4 (grid0.coords t) = false := rfl
theorem before_5 (c : Dev nD) (t : Fin cfg0.N) (d) : (dats m 0 c).before 5 t d = iblk m c 5 t :=
  ((dats m 0 c).before_in_eq_fetched 5 rfl (fun _ => rfl) (fun _ _ _ => rfl) (fun _ => rfl) t d).trans
    (by unfold Dat.fetched Dat.blockOf iblk; rfl)
theorem after_5 (c : Dev nD) (t : Fin cfg0.N) : (dats m 0 c).after 5 t = iblk m c 5 t := rfl
theorem idle_5 (t : Fin cfg0.N) : idle0 5 (grid0.coords t) = false := rfl
theorem before_6 (c : Dev nD) (t : Fin cfg0.N) (d) : (dats m 0 c).before 6 t d = iblk m c 6 t :=
  ((dats m 0 c).before_in_eq_fetched 6 rfl (fun _ => rfl) (fun _ _ _ => rfl) (fun _ => rfl) t d).trans
    (by unfold Dat.fetched Dat.blockOf iblk; rfl)
theorem after_6 (c : Dev nD) (t : Fin cfg0.N) : (dats m 0 c).after 6 t = iblk m c 6 t := rfl
theorem idle_6 (t : Fin cfg0.N) : idle0 6 (grid0.coords t) = false := rfl
theorem after_7 (c : Dev nD) (t : Fin cfg0.N) : (dats m 0 c).after 7 t = outAt m c t := rfl

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The library's body obligation at every point, by the point's phase: the run of that phase applied between the
    invariant's two instances; the windows a phase does not touch are passed through. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  have hN := N55
  rw [show (dats m 0 c).Φ t.castSucc = Φv m c t.castSucc from rfl, show (dats m 0 c).Φ t.succ = Φv m c t.succ from rfl]
  unfold Φv
  by_cases h3 : k0_cond3 (grid0.coords t) = 1#1
  · -- phase three
    have ht : 30 ≤ t.val := (c3_iff t).mp h3
    have h1 : ¬ k0_cond1 (grid0.coords t) = 1#1 := fun h => by have := (c1_iff t).mp h; omega
    have h2 : ¬ k0_cond2 (grid0.coords t) = 1#1 := fun h => by have := (c2_iff t).mp h; omega
    simp only [idle_0, idle_1, idle_2, idle_3, idle_4, idle_5, idle_6, idle7_of_c3 t h3, before_0, before_1, before_2, before_3,
      before_4, before_5, before_6, after_0, after_1, after_2, after_3, after_4, after_5, after_6, after_7]
    iintro ⟨⟨⟨%a, %hIa, Ha⟩, ⟨%b, %hIb, Hb⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
    have hb : b = P2 m c := inv2_full m c t.val ht b hIb
    subst hb
    iapply (run3 c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) h1 h2 h3 (blkA m c t) (blkB2 m c t) (P2 m c))
    isplitl [H1]; · iexact H1
    isplitl [H6]; · iexact H6
    isplitl [H7]; · iexists _; iexact H7
    isplitl [Hb]; · iexact Hb
    iintro ⟨H1, H6, H7, Hb⟩
    isplitl [Ha Hb Hp]
    · isplitl [Ha]; · iexists a; isplitr; (· ipureintro; exact inv1_mono m c t.val _ (by omega) a hIa); iexact Ha
      isplitl [Hb]; · iexists _; isplitr; (· ipureintro; exact inv2_mono m c t.val _ ht _ hIb); iexact Hb
      iexact Hp
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [idle_0, idle_1, idle_2, idle_3, idle_4, idle_5, idle_6, idle7_of_not_c3 t h3, flush7_of_not_c3 t h3, before_0, before_1,
      before_2, before_3, before_4, before_5, before_6, after_0, after_1, after_2, after_3, after_4, after_5, after_6]
    by_cases h1 : k0_cond1 (grid0.coords t) = 1#1
    · -- phase one
      have ht : t.val < 5 := (c1_iff t).mp h1
      have h2 : ¬ k0_cond2 (grid0.coords t) = 1#1 := fun h => by have := (c2_iff t).mp h; omega
      iintro ⟨⟨⟨%a, %hIa, Ha⟩, ⟨%b, %hIb, Hb⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, H7⟩
      iapply (run1 c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) h1 h2 h3 (blkX m c t) (blkW0 m c t) (blkW1 m c t) a)
      isplitl [H0]; · iexact H0
      isplitl [H2]; · iexact H2
      isplitl [H3]; · iexact H3
      isplitl [Ha]; · iexact Ha
      iintro ⟨H0, H2, H3, ⟨%a', %hU, Ha⟩⟩
      isplitl [Ha Hb Hp]
      · isplitl [Ha]; · iexists a'; isplitr; (· ipureintro; exact inv1_step m c t h1 a a' hIa hU); iexact Ha
        isplitl [Hb]; · iexists b; isplitr; (· ipureintro; exact inv2_low m c _ (by show t.val + 1 ≤ 5; omega) b); iexact Hb
        iexact Hp
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- phase two
      have ht : 5 ≤ t.val ∧ t.val < 30 := by
        have := t.isLt
        have n1 : ¬ t.val < 5 := fun h => h1 ((c1_iff t).mpr h)
        have n3 : ¬ 30 ≤ t.val := fun h => h3 ((c3_iff t).mpr h)
        omega
      have h2 : k0_cond2 (grid0.coords t) = 1#1 := (c2_iff t).mpr ht
      iintro ⟨⟨⟨%a, %hIa, Ha⟩, ⟨%b, %hIb, Hb⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, H7⟩
      have ha : a = P1 m c := inv1_full m c t.val ht.1 a hIa
      subst ha
      iapply (run2 c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) h1 h2 h3 (blkA m c t) (blkB1 m c t) (blkW2 m c t) (P1 m c) b)
      isplitl [H1]; · iexact H1
      isplitl [H4]; · iexact H4
      isplitl [H5]; · iexact H5
      isplitl [Ha]; · iexact Ha
      isplitl [Hb]; · iexact Hb
      iintro ⟨H1, H4, H5, Ha, ⟨%b', %hU, Hb⟩⟩
      isplitl [Ha Hb Hp]
      · isplitl [Ha]; · iexists _; isplitr; (· ipureintro; exact inv1_mono m c t.val _ ht.1 _ hIa); iexact Ha
        isplitl [Hb]; · iexists b'; isplitr; (· ipureintro; exact inv2_step m c t h2 b b' hIb hU); iexact Hb
        iexact Hp
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-! ## The launch -/

theorem ownSemFacts : Pipeline.OwnSemFacts spec0 osem := by decide

theorem ends_eq (c : Dev nD) (W : (b : Ref sig .tc) → Buf (Elt F) ((c : Thread nD τ).loc b)) :
    (Ends spec0 osem ∅ c W : sProp 𝕄)
      = iprop(emp ∗ emp ∗ ((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)) ∗ ∃ r, prngReg c r) := by
  unfold Ends Pipeline.routed; rw [bigSep_empty, Pipeline.ownSems0_eq_of_list c osem [] (by decide) (by decide), scopedRest0_eq]; rfl

/-- Before the first point nothing is asked of the scratch arrays' contents. -/
theorem hin (c : Dev nD) : (Ends spec0 osem ∅ c (V m c) : sProp 𝕄) ⊢ (dats m 0 c).Φ 0 := by
  rw [ends_eq, show (dats m 0 c).Φ 0 = Φv m c 0 from rfl]
  unfold Φv
  iintro ⟨-, -, ⟨⟨%f, Hf⟩, ⟨%g, Hg⟩⟩, Hp⟩
  isplitl [Hf]
  · iexists f; isplitr; (· ipureintro; exact inv1_zero m c f)
    rw [owns_whole_eq]; iexists f; isplitr; (· ipureintro; rfl); iexact Hf
  isplitl [Hg]
  · iexists g; isplitr; (· ipureintro; exact inv2_low m c 0 (by omega) g)
    rw [owns_whole_eq]; iexists g; isplitr; (· ipureintro; rfl); iexact Hg
  iexact Hp

theorem hout (c : Dev nD) : (dats m 0 c).Φ (Fin.last cfg0.N) ⊢ (Ends spec0 osem ∅ c (V m c) : sProp 𝕄) := by
  rw [ends_eq, show (dats m 0 c).Φ (Fin.last cfg0.N) = Φv m c (Fin.last cfg0.N) from rfl]
  unfold Φv; simp only [owns_whole_eq]
  iintro ⟨⟨%a, %hIa, %f, %hf, Hf⟩, ⟨%b, %hIb, %g, %hg, Hg⟩, Hp⟩
  isplitr; · iempintro
  isplitr; · iempintro
  isplitl [Hf Hg]
  · isplitl [Hf]; · iexists f; iexact Hf
    iexists g; iexact Hg
  iexact Hp

/-- Every weakly fair execution of @main on the TensorCores terminates; the arrays end at the library's account of
    their windows, the buffers no window stages as the region found them. -/
theorem run_main : θ_run defs (onTc (τ := τ) (main (F := F))) (s₀ m ρ) (RoutedPost cfgs (dats m) 0 ∅ (V m) (V m)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (R := ∅) (hR := Finset.empty_subset _) (Y := V m) (hin := hin m) (hout := hout m)

/-- The argument arrays end as launched: a staged one by the library's account of an input window, the two
    one-dimensional biases (which no window stages: their reshaped copies are staged) by the post's last clause. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats m 0 c).arrAt_in 0 rfl _).trans (V_main_arg0 m c)),
      ((h c).1 1).trans (((dats m 0 c).arrAt_in 1 rfl _).trans (V_main_arg1 m c)),
      ((h c).1 2).trans (((dats m 0 c).arrAt_in 2 rfl _).trans (V_main_arg2 m c)),
      ((h c).1 3).trans (((dats m 0 c).arrAt_in 3 rfl _).trans (V_main_arg3 m c)),
      ((h c).2.2 main_arg4 (by rw [Finset.sdiff_empty]; exact Pipeline.mem_restRefs_of main_arg4 (by decide) (by decide))).trans (V_main_arg4 m c),
      ((h c).1 5).trans (((dats m 0 c).arrAt_in 5 rfl _).trans (V_main_arg5 m c)),
      ((h c).2.2 main_arg6 (by rw [Finset.sdiff_empty]; exact Pipeline.mem_restRefs_of main_arg6 (by decide) (by decide))).trans (V_main_arg6 m c)⟩) (run_main m ρ)

end Cert.Proof.Kernel

end
-- ==== Proof.KernelIdealBody.lean ====
/-
  The kernel body of `KernelIdeal` at a symbolic grid point, in its three phases. The grid has 55 points; the body at point `s`:
  for `s < 5` it multiplies block `s` (2000 rows) of X by W0, takes the positive part, multiplies by W1 and stores the
  result into rows `2000 s … 2000 s + 1999` of the first scratch array; for `5 ≤ s < 30` it multiplies block `s - 5` (400
  rows) of A by the whole first scratch array, adds b1, takes the positive part, multiplies by W2 and stores the result
  into rows `400 (s - 5) …` of the second scratch array; for `30 ≤ s` it multiplies block `s - 30` of A by the whole
  second scratch array, adds b2 and stores the result into the output's staging buffer. Each phase is proved once, at any
  point of its kind, the kind given by the three branch conditions. A store into a scratch
  array covers only some of its rows: what the array holds afterwards is stated as a relation (`Upd`) — the stored
  payload on the rectangle, the old contents elsewhere.
-/
import proofs.«125068_g44581760532749_cont_8to1c4_205_3_alg».proof.Proof.Gen.KernelIdeal
import proofs.«125068_g44581760532749_cont_8to1c4_205_3_alg».proof.Proof.Gen.KernelIdeal.Skeleton
import proofs.«125068_g44581760532749_cont_8to1c4_205_3_alg».proof.Proof.Gen.KernelIdeal.Launch
import Idealize.ShloMosaic.Lib.Writes
import Idealize.ShloMosaic.Lib.Pipeline.FrameBody
import Idealize.ShloMosaic.Lib.Pipeline.Routed
import Idealize.ShloMosaic.Lib.Tactic

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra of the launch theorem used: the pipeline library's rounds copy and the counters. -/
abbrev UC : Type := Pipeline.UC sig nD τ
local notation "𝕄" => MT nD τ sig Unit (Elt F) ℕ UC ℕ

/-- The two scratch arrays, whole: (10000, 64) each. -/
abbrev s0M : Memref sig .tc .vmem S10000x64 .f32 := Memref.whole cc0_scratch0
abbrev s1M : Memref sig .tc .vmem S10000x64 .f32 := Memref.whole cc0_scratch1

/-- The rows a phase-one point stores, and the rows a phase-two point stores. -/
abbrev rect1 (i : grid0.Coords) (h : k0_cond1 i = 1#1) : Rect S10000x64 :=
  Rect.unit (s := S10000x64) (k0_off1 i) S2000x64.size (k0_off1_inb i h)
abbrev rect2 (i : grid0.Coords) (h : k0_cond2 i = 1#1) : Rect S10000x64 :=
  Rect.unit (s := S10000x64) (k0_off2 i) S400x64.size (k0_off2_inb i h)

/-- Contents `a'` are contents `a` with payload `w` stored through rectangle `r`. -/
def Upd {s : Shape} (r : Rect s) (w : r.shape.Idx → Elt F .f32) (a a' : s.Idx → Elt F .f32) : Prop :=
  (∀ x, a' (r.emb x) = w x) ∧ ∀ y, y ∉ r.set → a' y = a y

omit [FloatOps F] in
theorem upd_of_writes {sp : Space} {s : Shape} (v : View sig .tc sp s .f32) (f : v.ty.Contents (Elt F)) (r : Rect s) (w : r.shape.Idx → Elt F .f32) :
    Upd r w (v.read (Elt F) f) (v.read (Elt F) (v.writes (Elt F) f [⟨r, w⟩])) :=
  ⟨fun x => View.read_writes_cons_emb v f r w [] x,
   fun y hy => View.read_writes_apply_of_forall_not_mem v f y [⟨r, w⟩] (fun p hp => by
     rw [List.mem_singleton] at hp; subst hp; exact hy)⟩

/-- The whole-block rectangles the loads and the output's store go through. -/
abbrev rX : Rect S2000x512 := Rect.unit (s := S2000x512) ![0, 0] S2000x512.size inb_S2000x512_S2000x512_0_0
abbrev rA : Rect S400x10000 := Rect.unit (s := S400x10000) ![0, 0] S400x10000.size inb_S400x10000_S400x10000_0_0
abbrev rW0 : Rect S512x64 := Rect.unit (s := S512x64) ![0, 0] S512x64.size inb_S512x64_S512x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0
abbrev rS : Rect S10000x64 := Rect.unit (s := S10000x64) ![0, 0] S10000x64.size inb_S10000x64_S10000x64_0_0
abbrev rO : Rect S400x64 := Rect.unit (s := S400x64) ![0, 0] S400x64.size inb_S400x64_S400x64_0_0

/-- What a phase-one point stores: `relu(X_blk · W0) · W1`. -/
abbrev pay1v (x0 : Vec F S2000x512 .f32) (x2 : Vec F S512x64 .f32) (x3 : Vec F S64x64 .f32) : Vec F S2000x64 .f32 :=
  k0_pay1 (View.ld x0 rX) (View.ld x2 rW0) (View.ld x3 rW)
/-- What a phase-two point stores: `relu(A_blk · P1 + b1) · W2`. -/
abbrev pay2v (x1 : Vec F S400x10000 .f32) (a : Vec F S10000x64 .f32) (x4 : Vec F S1x64 .f32) (x5 : Vec F S64x64 .f32) : Vec F S400x64 .f32 :=
  k0_pay2 (View.ld x1 rA) (View.ld a rS) (View.ld x4 rB) (View.ld x5 rW)
/-- The output block a phase-three point stores: `A_blk · P2 + b2`, as the canon of its one whole-block store. -/
abbrev outv (x1 : Vec F S400x10000 .f32) (b : Vec F S10000x64 .f32) (x6 : Vec F S1x64 .f32) : Vec F S400x64 .f32 :=
  View.canon [⟨rO, k0_pay3 (View.ld x1 rA) (View.ld b rS) (View.ld x6 rB)⟩]

omit [FloatOps F] in
theorem coverO (p : Vec F S400x64 .f32) (y : S400x64.Idx) : ∃ pc ∈ ([⟨rO, p⟩] : List (View.Piece (Elt F) S400x64 .f32)), y ∈ pc.1.set :=
  View.cover_of_tiled [⟨rO, p⟩] S400x64.size (by rfl) y

section Runs

variable (c : Dev nD) (t : Fin cfg0.N)
  (M0 : Memref sig .tc .vmem S2000x512 .f32) (h0 : M0.IsWhole) (M1 : Memref sig .tc .vmem S400x10000 .f32) (h1 : M1.IsWhole)
  (M2 : Memref sig .tc .vmem S512x64 .f32) (h2 : M2.IsWhole) (M3 : Memref sig .tc .vmem S64x64 .f32) (h3 : M3.IsWhole)
  (M4 : Memref sig .tc .vmem S1x64 .f32) (h4 : M4.IsWhole) (M5 : Memref sig .tc .vmem S64x64 .f32) (h5 : M5.IsWhole)
  (M6 : Memref sig .tc .vmem S1x64 .f32) (h6 : M6.IsWhole) (M7 : Memref sig .tc .vmem S400x64 .f32) (h7 : M7.IsWhole)

local notation "BODY" => cc0__gcn_body (grid0.coords t) M0 h0 M1 h1 M2 h2 M3 h3 M4 h4 M5 h5 M6 h6 M7 h7
  (Memref.whole cc0_scratch0) (Memref.isWhole_whole _) (Memref.whole cc0_scratch1) (Memref.isWhole_whole _)

/-- A phase-one point: X's block, W0 and W1 are read, the first scratch array gets the payload on the point's rows. -/
theorem run1 (hc1 : k0_cond1 (grid0.coords t) = 1#1) (hc2 : ¬ k0_cond2 (grid0.coords t) = 1#1) (hc3 : ¬ k0_cond3 (grid0.coords t) = 1#1)
    (x0 : Vec F S2000x512 .f32) (x2 : Vec F S512x64 .f32) (x3 : Vec F S64x64 .f32) (a : Vec F S10000x64 .f32)
    (Q : PUnit → sProp 𝕄) :
    iprop(owns (c : Thread nD τ) M0 fullShare x0 ∗ owns (c : Thread nD τ) M2 fullShare x2 ∗ owns (c : Thread nD τ) M3 fullShare x3
        ∗ owns (c : Thread nD τ) s0M fullShare a
      ∗ (iprop(owns (c : Thread nD τ) M0 fullShare x0 ∗ owns (c : Thread nD τ) M2 fullShare x2 ∗ owns (c : Thread nD τ) M3 fullShare x3
          ∗ ∃ a', ⌜Upd (rect1 (grid0.coords t) hc1) (pay1v x0 x2 x3) a a'⌝ ∗ owns (c : Thread nD τ) s0M fullShare a') -∗ Q ⟨⟩))
      ⊢ wp frame (wpE (defs₀ (F := F)) Variants.none c none) Set.univ BODY Q := by
  unfold owns
  iintro ⟨⟨%f0, %hf0, H0⟩, ⟨%f2, %hf2, H2⟩, ⟨%f3, %hf3, H3⟩, ⟨%fa, %hfa, Ha⟩, Hk⟩
  subst hf0 hf2 hf3 hfa
  sl_exec! (disch := assumption)
  sl_step
  iapply Hk
  isplitl [H0]; · iexists f0; isplitr; (· ipureintro; rfl); iexact H0
  isplitl [H2]; · iexists f2; isplitr; (· ipureintro; rfl); iexact H2
  isplitl [H3]; · iexists f3; isplitr; (· ipureintro; rfl); iexact H3
  iexists _; isplitr; swap
  · iexists _; isplitr; swap; (· iexact Ha); ipureintro; rfl
  · ipureintro; exact upd_of_writes _ _ _ _

/-- A phase-two point: A's block, the first scratch array (whole), b1 and W2 are read, the second scratch array gets the
    payload on the point's rows. -/
theorem run2 (hc1 : ¬ k0_cond1 (grid0.coords t) = 1#1) (hc2 : k0_cond2 (grid0.coords t) = 1#1) (hc3 : ¬ k0_cond3 (grid0.coords t) = 1#1)
    (x1 : Vec F S400x10000 .f32) (x4 : Vec F S1x64 .f32) (x5 : Vec F S64x64 .f32) (a b : Vec F S10000x64 .f32)
    (Q : PUnit → sProp 𝕄) :
    iprop(owns (c : Thread nD τ) M1 fullShare x1 ∗ owns (c : Thread nD τ) M4 fullShare x4 ∗ owns (c : Thread nD τ) M5 fullShare x5
        ∗ owns (c : Thread nD τ) s0M fullShare a ∗ owns (c : Thread nD τ) s1M fullShare b
      ∗ (iprop(owns (c : Thread nD τ) M1 fullShare x1 ∗ owns (c : Thread nD τ) M4 fullShare x4 ∗ owns (c : Thread nD τ) M5 fullShare x5
          ∗ owns (c : Thread nD τ) s0M fullShare a
          ∗ ∃ b', ⌜Upd (rect2 (grid0.coords t) hc2) (pay2v x1 a x4 x5) b b'⌝ ∗ owns (c : Thread nD τ) s1M fullShare b') -∗ Q ⟨⟩))
      ⊢ wp frame (wpE (defs₀ (F := F)) Variants.none c none) Set.univ BODY Q := by
  unfold owns
  iintro ⟨⟨%f1, %hf1, H1⟩, ⟨%f4, %hf4, H4⟩, ⟨%f5, %hf5, H5⟩, ⟨%fa, %hfa, Ha⟩, ⟨%fb, %hfb, Hb⟩, Hk⟩
  subst hf1 hf4 hf5 hfa hfb
  sl_exec! (disch := assumption)
  sl_step
  iapply Hk
  isplitl [H1]; · iexists f1; isplitr; (· ipureintro; rfl); iexact H1
  isplitl [H4]; · iexists f4; isplitr; (· ipureintro; rfl); iexact H4
  isplitl [H5]; · iexists f5; isplitr; (· ipureintro; rfl); iexact H5
  isplitl [Ha]; · iexists fa; isplitr; (· ipureintro; rfl); iexact Ha
  iexists _; isplitr; swap
  · iexists _; isplitr; swap; (· iexact Hb); ipureintro; rfl
  · ipureintro; exact upd_of_writes _ _ _ _

/-- A phase-three point: A's block, the second scratch array (whole) and b2 are read, the output's staging buffer,
    whatever it held, gets the payload. -/
theorem run3 (hc1 : ¬ k0_cond1 (grid0.coords t) = 1#1) (hc2 : ¬ k0_cond2 (grid0.coords t) = 1#1) (hc3 : k0_cond3 (grid0.coords t) = 1#1)
    (x1 : Vec F S400x10000 .f32) (x6 : Vec F S1x64 .f32) (b : Vec F S10000x64 .f32)
    (Q : PUnit → sProp 𝕄) :
    iprop(owns (c : Thread nD τ) M1 fullShare x1 ∗ owns (c : Thread nD τ) M6 fullShare x6 ∗ (∃ d, owns (c : Thread nD τ) M7 fullShare d)
        ∗ owns (c : Thread nD τ) s1M fullShare b
      ∗ (iprop(owns (c : Thread nD τ) M1 fullShare x1 ∗ owns (c : Thread nD τ) M6 fullShare x6 ∗ owns (c : Thread nD τ) M7 fullShare (outv x1 b x6)
          ∗ owns (c : Thread nD τ) s1M fullShare b) -∗ Q ⟨⟩))
      ⊢ wp frame (wpE (defs₀ (F := F)) Variants.none c none) Set.univ BODY Q := by
  unfold owns
  iintro ⟨⟨%f1, %hf1, H1⟩, ⟨%f6, %hf6, H6⟩, ⟨%d7, %f7, %hf7, H7⟩, ⟨%fb, %hfb, Hb⟩, Hk⟩
  subst hf1 hf6 hfb
  sl_exec! (disch := assumption)
  sl_step
  iapply Hk
  isplitl [H1]; · iexists f1; isplitr; (· ipureintro; rfl); iexact H1
  isplitl [H6]; · iexists f6; isplitr; (· ipureintro; rfl); iexact H6
  isplitl [H7]; · iexists _; isplitr; swap; (· iexact H7); ipureintro; exact View.read_writes_eq_canon _ _ _ (coverO _)
  iexists fb; isplitr; (· ipureintro; rfl); iexact Hb

end Runs

end Cert.Proof.KernelIdeal

end
-- ==== Proof.KernelIdealRun.lean ====
/-
  The run of `KernelIdeal`: the pipeline's proof data and the launch.
  The two scratch arrays are carried from point to point by the invariant: before point `k` the first holds, on its rows
  below `2000 · min k 5`, the array `P1 = relu(X · W0) · W1` (row block `s` computed from X's block `s`), and the second, on
  its rows below `400 · (min k 30 - 5)`, the array `P2 = relu(A · P1 + b1) · W2` (row block `j` from A's block `j`); nothing is
  said of the other rows (they hold what the arrays held at launch). From point 5 on the first array is all of `P1`, from
  point 30 on the second is all of `P2`, so the block a phase-three point stores into the output is stated in closed form.
  The output's window is idle at the points before 30 and written back at every point from 30 on.
-/
import proofs.«125068_g44581760532749_cont_8to1c4_205_3_alg».proof.Proof.KernelIdealBody
import Idealize.ShloMosaic.Lib.Pipeline.Routed
import Idealize.ShloMosaic.Lib.ValueIdx
import proofs.«125068_g44581760532749_cont_8to1c4_205_3_alg».proof.Proof.Gen.KernelIdeal.Frame
import proofs.«125068_g44581760532749_cont_8to1c4_205_3_alg».proof.Proof.Gen.KernelIdeal.Points

noncomputable section

namespace Cert.Proof.KernelIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost)

variable {F : FTy → Type} [FloatOps F]

local notation "𝕄" => MT nD τ sig Unit (Elt F) ℕ UC ℕ

/-! ## The kinds of point, the stores' rows, the output's schedule -/

theorem N55 : cfg0.N = 55 := N_0

theorem c1_iff : ∀ t : Fin cfg0.N, k0_cond1 (grid0.coords t) = 1#1 ↔ t.val < 5 :=
  (by decide +kernel : ∀ t : Fin grid0.N, k0_cond1 (grid0.coords t) = 1#1 ↔ t.val < 5)
theorem c2_iff : ∀ t : Fin cfg0.N, k0_cond2 (grid0.coords t) = 1#1 ↔ (5 ≤ t.val ∧ t.val < 30) :=
  (by decide +kernel : ∀ t : Fin grid0.N, k0_cond2 (grid0.coords t) = 1#1 ↔ (5 ≤ t.val ∧ t.val < 30))
theorem c3_iff : ∀ t : Fin cfg0.N, k0_cond3 (grid0.coords t) = 1#1 ↔ 30 ≤ t.val :=
  (by decide +kernel : ∀ t : Fin grid0.N, k0_cond3 (grid0.coords t) = 1#1 ↔ 30 ≤ t.val)
theorem off1_0 : ∀ t : Fin cfg0.N, k0_off1 (grid0.coords t) 0 = 2000 * t.val :=
  (by decide +kernel : ∀ t : Fin grid0.N, k0_off1 (grid0.coords t) 0 = 2000 * t.val)
theorem off1_1 : ∀ t : Fin cfg0.N, k0_off1 (grid0.coords t) 1 = 0 :=
  (by decide +kernel : ∀ t : Fin grid0.N, k0_off1 (grid0.coords t) 1 = 0)
theorem off2_0 : ∀ t : Fin cfg0.N, 5 ≤ t.val → k0_off2 (grid0.coords t) 0 = 400 * (t.val - 5) :=
  (by decide +kernel : ∀ t : Fin grid0.N, 5 ≤ t.val → k0_off2 (grid0.coords t) 0 = 400 * (t.val - 5))
theorem off2_1 : ∀ t : Fin cfg0.N, k0_off2 (grid0.coords t) 1 = 0 :=
  (by decide +kernel : ∀ t : Fin grid0.N, k0_off2 (grid0.coords t) 1 = 0)
theorem flush7_iff : ∀ t : Fin cfg0.N, (cfg0.win 7).flush t = true ↔ 30 ≤ t.val :=
  (by decide +kernel : ∀ t : Fin grid0.N, win0_7.flush t = true ↔ 30 ≤ t.val)

theorem idle7_of_c3 (t : Fin cfg0.N) (h : k0_cond3 (grid0.coords t) = 1#1) : idle0 7 (grid0.coords t) = false := by
  show (!(k0_cond3 (grid0.coords t) == 1#1)) = false; rw [show (k0_cond3 (grid0.coords t) == 1#1) = true from beq_iff_eq.mpr h]; rfl
theorem idle7_of_not_c3 (t : Fin cfg0.N) (h : ¬ k0_cond3 (grid0.coords t) = 1#1) : idle0 7 (grid0.coords t) = true := by
  show (!(k0_cond3 (grid0.coords t) == 1#1)) = true; rw [show (k0_cond3 (grid0.coords t) == 1#1) = false from beq_eq_false_iff_ne.mpr h]; rfl
theorem flush7_of_not_c3 (t : Fin cfg0.N) (h : ¬ k0_cond3 (grid0.coords t) = 1#1) : (cfg0.win 7).flush t = false :=
  Bool.eq_false_iff.mpr fun hf => h ((c3_iff t).mpr ((flush7_iff t).mp hf))

variable (m : (ℓ : Loc nD τ sig) → Buf (Elt F) ℓ) (ρ : Dev nD → PrngReg)

/-! ## The windows' blocks at a point, at their literal shapes -/

abbrev blkX (c : Dev nD) (t : Fin cfg0.N) : Vec F S2000x512 .f32 := iblk m c 0 t
abbrev blkA (c : Dev nD) (t : Fin cfg0.N) : Vec F S400x10000 .f32 := iblk m c 1 t
abbrev blkW0 (c : Dev nD) (t : Fin cfg0.N) : Vec F S512x64 .f32 := iblk m c 2 t
abbrev blkW1 (c : Dev nD) (t : Fin cfg0.N) : Vec F S64x64 .f32 := iblk m c 3 t
abbrev blkB1 (c : Dev nD) (t : Fin cfg0.N) : Vec F S1x64 .f32 := iblk m c 4 t
abbrev blkW2 (c : Dev nD) (t : Fin cfg0.N) : Vec F S64x64 .f32 := iblk m c 5 t
abbrev blkB2 (c : Dev nD) (t : Fin cfg0.N) : Vec F S1x64 .f32 := iblk m c 6 t

/-! ## What the scratch arrays end up holding -/

/-- The phase-one point that stores row `y 0` of the first scratch array, and the row's place in that point's block. -/
def pt1 (y : S10000x64.Idx) : Fin cfg0.N := ⟨(y 0).val / 2000, by have := idx2_lt0 y; have := N55; omega⟩
def loc1 (y : S10000x64.Idx) : S2000x64.Idx :=
  ix2 (n0 := 2000) (n1 := 64) ⟨(y 0).val % 2000, Nat.mod_lt _ (by decide)⟩ ⟨(y 1).val, idx2_lt1 y⟩
/-- The phase-two point that stores row `y 0` of the second scratch array, and the row's place in that point's block. -/
def pt2 (y : S10000x64.Idx) : Fin cfg0.N := ⟨5 + (y 0).val / 400, by have := idx2_lt0 y; have := N55; omega⟩
def loc2 (y : S10000x64.Idx) : S400x64.Idx :=
  ix2 (n0 := 400) (n1 := 64) ⟨(y 0).val % 400, Nat.mod_lt _ (by decide)⟩ ⟨(y 1).val, idx2_lt1 y⟩

/-- `P1`: row block `s` is what phase-one point `s` stores. -/
def P1 (c : Dev nD) : Vec F S10000x64 .f32 := fun y =>
  pay1v (blkX m c (pt1 y)) (blkW0 m c (pt1 y)) (blkW1 m c (pt1 y)) (loc1 y)
/-- `P2`: row block `j` is what phase-two point `5 + j` stores, the first scratch array then all of `P1`. -/
def P2 (c : Dev nD) : Vec F S10000x64 .f32 := fun y =>
  pay2v (blkA m c (pt2 y)) (P1 m c) (blkB1 m c (pt2 y)) (blkW2 m c (pt2 y)) (loc2 y)
/-- The output block a phase-three point stores. -/
def outAt (c : Dev nD) (t : Fin cfg0.N) : Vec F S400x64 .f32 := outv (blkA m c t) (P2 m c) (blkB2 m c t)

/-- The first scratch array before point `k`: `P1` on the rows stored so far. -/
def Inv1 (c : Dev nD) (k : ℕ) (a : Vec F S10000x64 .f32) : Prop :=
  ∀ y : S10000x64.Idx, (y 0).val < 2000 * min k 5 → a y = P1 m c y
/-- The second scratch array before point `k`: `P2` on the rows stored so far. -/
def Inv2 (c : Dev nD) (k : ℕ) (b : Vec F S10000x64 .f32) : Prop :=
  ∀ y : S10000x64.Idx, (y 0).val + 2000 < 400 * min k 30 → b y = P2 m c y

theorem inv1_zero (c : Dev nD) (a : Vec F S10000x64 .f32) : Inv1 m c 0 a := fun y hy => by simp at hy
theorem inv2_low (c : Dev nD) (k : ℕ) (hk : k ≤ 5) (b : Vec F S10000x64 .f32) : Inv2 m c k b := fun y hy => by
  have : min k 30 ≤ 5 := le_trans (min_le_left _ _) hk
  omega
theorem inv1_mono (c : Dev nD) (k k' : ℕ) (hk : 5 ≤ k) (a : Vec F S10000x64 .f32) (h : Inv1 m c k a) : Inv1 m c k' a := fun y hy =>
  h y (by have : min k 5 = 5 := min_eq_right hk; have : min k' 5 ≤ 5 := min_le_right _ _; omega)
theorem inv2_mono (c : Dev nD) (k k' : ℕ) (hk : 30 ≤ k) (b : Vec F S10000x64 .f32) (h : Inv2 m c k b) : Inv2 m c k' b := fun y hy =>
  h y (by have : min k 30 = 30 := min_eq_right hk; have : min k' 30 ≤ 30 := min_le_right _ _; omega)
theorem inv1_full (c : Dev nD) (k : ℕ) (hk : 5 ≤ k) (a : Vec F S10000x64 .f32) (h : Inv1 m c k a) : a = P1 m c :=
  funext fun y => h y (by have : min k 5 = 5 := min_eq_right hk; have := idx2_lt0 y; omega)
theorem inv2_full (c : Dev nD) (k : ℕ) (hk : 30 ≤ k) (b : Vec F S10000x64 .f32) (h : Inv2 m c k b) : b = P2 m c :=
  funext fun y => h y (by have : min k 30 = 30 := min_eq_right hk; have := idx2_lt0 y; omega)

/-- A phase-one point extends the rows of the first scratch array that hold `P1` by its block. -/
theorem inv1_step (c : Dev nD) (t : Fin cfg0.N) (hc1 : k0_cond1 (grid0.coords t) = 1#1) (a a' : Vec F S10000x64 .f32)
    (hI : Inv1 m c t.val a)
    (hU : Upd (rect1 (grid0.coords t) hc1) (pay1v (blkX m c t) (blkW0 m c t) (blkW1 m c t)) a a') : Inv1 m c (t.val + 1) a' := by
  have ht : t.val < 5 := (c1_iff t).mp hc1
  intro y hy
  by_cases hm : y ∈ (rect1 (grid0.coords t) hc1).set
  · obtain ⟨x, rfl⟩ := (rect1 (grid0.coords t) hc1).exists_idx_of_mem hm
    have e0 : (((rect1 (grid0.coords t) hc1).idx x) 0).val = 2000 * t.val + (x 0).val := by
      show k0_off1 (grid0.coords t) 0 + 1 * (x 0).val = _; rw [off1_0]; omega
    have e1 : (((rect1 (grid0.coords t) hc1).idx x) 1).val = (x 1).val := by
      show k0_off1 (grid0.coords t) 1 + 1 * (x 1).val = _; rw [off1_1]; omega
    have hx0 : (x 0).val < 2000 := (x 0).isLt
    have hp : pt1 ((rect1 (grid0.coords t) hc1).idx x) = t := Fin.ext (by show _ / 2000 = t.val; rw [e0]; omega)
    have hl : loc1 ((rect1 (grid0.coords t) hc1).idx x) = x := funext fun d => match d with
      | ⟨0, _⟩ => Fin.ext (by show _ % 2000 = (x 0).val; rw [e0]; omega)
      | ⟨1, _⟩ => Fin.ext (by show _ = (x 1).val; exact e1)
    refine (hU.1 x).trans ?_
    unfold P1
    rw [hp, hl]
  · rw [hU.2 y hm]
    apply hI
    have hlt : (y 0).val < 2000 * t.val := by
      by_contra hge
      apply hm
      rw [Rect.mem_set_unit]
      intro d
      match d with
      | ⟨0, _⟩ =>
        show k0_off1 (grid0.coords t) 0 ≤ (y 0).val ∧ (y 0).val < k0_off1 (grid0.coords t) 0 + 2000
        rw [off1_0]; have : min (t.val + 1) 5 = t.val + 1 := min_eq_left (by omega); omega
      | ⟨1, _⟩ =>
        show k0_off1 (grid0.coords t) 1 ≤ (y 1).val ∧ (y 1).val < k0_off1 (grid0.coords t) 1 + 64
        rw [off1_1]; have := idx2_lt1 y; omega
    have : min t.val 5 = t.val := min_eq_left (by omega)
    omega

/-- A phase-two point extends the rows of the second scratch array that hold `P2` by its block. -/
theorem inv2_step (c : Dev nD) (t : Fin cfg0.N) (hc2 : k0_cond2 (grid0.coords t) = 1#1) (b b' : Vec F S10000x64 .f32)
    (hI : Inv2 m c t.val b)
    (hU : Upd (rect2 (grid0.coords t) hc2) (pay2v (blkA m c t) (P1 m c) (blkB1 m c t) (blkW2 m c t)) b b') : Inv2 m c (t.val + 1) b' := by
  have ht : 5 ≤ t.val ∧ t.val < 30 := (c2_iff t).mp hc2
  intro y hy
  by_cases hm : y ∈ (rect2 (grid0.coords t) hc2).set
  · obtain ⟨x, rfl⟩ := (rect2 (grid0.coords t) hc2).exists_idx_of_mem hm
    have e0 : (((rect2 (grid0.coords t) hc2).idx x) 0).val = 400 * (t.val - 5) + (x 0).val := by
      show k0_off2 (grid0.coords t) 0 + 1 * (x 0).val = _; rw [off2_0 t ht.1]; omega
    have e1 : (((rect2 (grid0.coords t) hc2).idx x) 1).val = (x 1).val := by
      show k0_off2 (grid0.coords t) 1 + 1 * (x 1).val = _; rw [off2_1]; omega
    have hx0 : (x 0).val < 400 := (x 0).isLt
    have hp : pt2 ((rect2 (grid0.coords t) hc2).idx x) = t := Fin.ext (by show 5 + _ / 400 = t.val; rw [e0]; omega)
    have hl : loc2 ((rect2 (grid0.coords t) hc2).idx x) = x := funext fun d => match d with
      | ⟨0, _⟩ => Fin.ext (by show _ % 400 = (x 0).val; rw [e0]; omega)
      | ⟨1, _⟩ => Fin.ext (by show _ = (x 1).val; exact e1)
    refine (hU.1 x).trans ?_
    unfold P2
    rw [hp, hl]
  · rw [hU.2 y hm]
    apply hI
    have hlt : (y 0).val < 400 * (t.val - 5) := by
      by_contra hge
      apply hm
      rw [Rect.mem_set_unit]
      intro d
      match d with
      | ⟨0, _⟩ =>
        show k0_off2 (grid0.coords t) 0 ≤ (y 0).val ∧ (y 0).val < k0_off2 (grid0.coords t) 0 + 400
        rw [off2_0 t ht.1]; have : min (t.val + 1) 30 = t.val + 1 := min_eq_left (by omega); omega
      | ⟨1, _⟩ =>
        show k0_off2 (grid0.coords t) 1 ≤ (y 1).val ∧ (y 1).val < k0_off2 (grid0.coords t) 1 + 64
        rw [off2_1]; have := idx2_lt1 y; omega
    have : min t.val 30 = t.val := min_eq_left (by omega)
    omega

/-! ## The proof data -/

/-- The invariant before point `k`: the two scratch arrays at contents meeting `Inv1`, `Inv2`; the generator register at anything. -/
def Φv (c : Dev nD) (k : Fin (cfg0.N + 1)) : sProp 𝕄 :=
  iprop((∃ a, ⌜Inv1 m c k.val a⌝ ∗ owns (c : Thread nD τ) s0M fullShare a)
    ∗ (∃ b, ⌜Inv2 m c k.val b⌝ ∗ owns (c : Thread nD τ) s1M fullShare b) ∗ ∃ r, prngReg c r)

def dats (_ : Fin 1) (c : Dev nD) : Dat τ (Elt F) Unit ℕ UC ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ k := Φv m c k
  q _ := fullShare
  owed _ := 0

abbrev 𝒱₀ : Variants := Variants.none
/-- No semaphore of the kernel's own. -/
abbrev osem : Fin 0 → SemLoc sig := fun k => k.elim0

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans
    (by unfold Dat.fetched Dat.blockOf iblk; rfl)
theorem after_0 (c : Dev nD) (t : Fin cfg0.N) : (dats m 0 c).after 0 t = iblk m c 0 t := rfl
theorem idle_0 (t : Fin cfg0.N) : idle0 0 (grid0.coords t) = false := rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans
    (by unfold Dat.fetched Dat.blockOf iblk; rfl)
theorem after_1 (c : Dev nD) (t : Fin cfg0.N) : (dats m 0 c).after 1 t = iblk m c 1 t := rfl
theorem idle_1 (t : Fin cfg0.N) : idle0 1 (grid0.coords t) = false := rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans
    (by unfold Dat.fetched Dat.blockOf iblk; rfl)
theorem after_2 (c : Dev nD) (t : Fin cfg0.N) : (dats m 0 c).after 2 t = iblk m c 2 t := rfl
theorem idle_2 (t : Fin cfg0.N) : idle0 2 (grid0.coords t) = false := rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans
    (by unfold Dat.fetched Dat.blockOf iblk; rfl)
theorem after_3 (c : Dev nD) (t : Fin cfg0.N) : (dats m 0 c).after 3 t = iblk m c 3 t := rfl
theorem idle_3 (t : Fin cfg0.N) : idle0 3 (grid0.coords t) = false := rfl
theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans
    (by unfold Dat.fetched Dat.blockOf iblk; rfl)
theorem after_4 (c : Dev nD) (t : Fin cfg0.N) : (dats m 0 c).after 4 t = iblk m c 4 t := rfl
theorem idle_4 (t : Fin cfg0.N) : idle0 4 (grid0.coords t) = false := rfl
theorem before_5 (c : Dev nD) (t : Fin cfg0.N) (d) : (dats m 0 c).before 5 t d = iblk m c 5 t :=
  ((dats m 0 c).before_in_eq_fetched 5 rfl (fun _ => rfl) (fun _ _ _ => rfl) (fun _ => rfl) t d).trans
    (by unfold Dat.fetched Dat.blockOf iblk; rfl)
theorem after_5 (c : Dev nD) (t : Fin cfg0.N) : (dats m 0 c).after 5 t = iblk m c 5 t := rfl
theorem idle_5 (t : Fin cfg0.N) : idle0 5 (grid0.coords t) = false := rfl
theorem before_6 (c : Dev nD) (t : Fin cfg0.N) (d) : (dats m 0 c).before 6 t d = iblk m c 6 t :=
  ((dats m 0 c).before_in_eq_fetched 6 rfl (fun _ => rfl) (fun _ _ _ => rfl) (fun _ => rfl) t d).trans
    (by unfold Dat.fetched Dat.blockOf iblk; rfl)
theorem after_6 (c : Dev nD) (t : Fin cfg0.N) : (dats m 0 c).after 6 t = iblk m c 6 t := rfl
theorem idle_6 (t : Fin cfg0.N) : idle0 6 (grid0.coords t) = false := rfl
theorem after_7 (c : Dev nD) (t : Fin cfg0.N) : (dats m 0 c).after 7 t = outAt m c t := rfl

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The library's body obligation at every point, by the point's phase: the run of that phase applied between the
    invariant's two instances; the windows a phase does not touch are passed through. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  have hN := N55
  rw [show (dats m 0 c).Φ t.castSucc = Φv m c t.castSucc from rfl, show (dats m 0 c).Φ t.succ = Φv m c t.succ from rfl]
  unfold Φv
  by_cases h3 : k0_cond3 (grid0.coords t) = 1#1
  · -- phase three
    have ht : 30 ≤ t.val := (c3_iff t).mp h3
    have h1 : ¬ k0_cond1 (grid0.coords t) = 1#1 := fun h => by have := (c1_iff t).mp h; omega
    have h2 : ¬ k0_cond2 (grid0.coords t) = 1#1 := fun h => by have := (c2_iff t).mp h; omega
    simp only [idle_0, idle_1, idle_2, idle_3, idle_4, idle_5, idle_6, idle7_of_c3 t h3, before_0, before_1, before_2, before_3,
      before_4, before_5, before_6, after_0, after_1, after_2, after_3, after_4, after_5, after_6, after_7]
    iintro ⟨⟨⟨%a, %hIa, Ha⟩, ⟨%b, %hIb, Hb⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
    have hb : b = P2 m c := inv2_full m c t.val ht b hIb
    subst hb
    iapply (run3 c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) h1 h2 h3 (blkA m c t) (blkB2 m c t) (P2 m c))
    isplitl [H1]; · iexact H1
    isplitl [H6]; · iexact H6
    isplitl [H7]; · iexists _; iexact H7
    isplitl [Hb]; · iexact Hb
    iintro ⟨H1, H6, H7, Hb⟩
    isplitl [Ha Hb Hp]
    · isplitl [Ha]; · iexists a; isplitr; (· ipureintro; exact inv1_mono m c t.val _ (by omega) a hIa); iexact Ha
      isplitl [Hb]; · iexists _; isplitr; (· ipureintro; exact inv2_mono m c t.val _ ht _ hIb); iexact Hb
      iexact Hp
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [idle_0, idle_1, idle_2, idle_3, idle_4, idle_5, idle_6, idle7_of_not_c3 t h3, flush7_of_not_c3 t h3, before_0, before_1,
      before_2, before_3, before_4, before_5, before_6, after_0, after_1, after_2, after_3, after_4, after_5, after_6]
    by_cases h1 : k0_cond1 (grid0.coords t) = 1#1
    · -- phase one
      have ht : t.val < 5 := (c1_iff t).mp h1
      have h2 : ¬ k0_cond2 (grid0.coords t) = 1#1 := fun h => by have := (c2_iff t).mp h; omega
      iintro ⟨⟨⟨%a, %hIa, Ha⟩, ⟨%b, %hIb, Hb⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, H7⟩
      iapply (run1 c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) h1 h2 h3 (blkX m c t) (blkW0 m c t) (blkW1 m c t) a)
      isplitl [H0]; · iexact H0
      isplitl [H2]; · iexact H2
      isplitl [H3]; · iexact H3
      isplitl [Ha]; · iexact Ha
      iintro ⟨H0, H2, H3, ⟨%a', %hU, Ha⟩⟩
      isplitl [Ha Hb Hp]
      · isplitl [Ha]; · iexists a'; isplitr; (· ipureintro; exact inv1_step m c t h1 a a' hIa hU); iexact Ha
        isplitl [Hb]; · iexists b; isplitr; (· ipureintro; exact inv2_low m c _ (by show t.val + 1 ≤ 5; omega) b); iexact Hb
        iexact Hp
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- phase two
      have ht : 5 ≤ t.val ∧ t.val < 30 := by
        have := t.isLt
        have n1 : ¬ t.val < 5 := fun h => h1 ((c1_iff t).mpr h)
        have n3 : ¬ 30 ≤ t.val := fun h => h3 ((c3_iff t).mpr h)
        omega
      have h2 : k0_cond2 (grid0.coords t) = 1#1 := (c2_iff t).mpr ht
      iintro ⟨⟨⟨%a, %hIa, Ha⟩, ⟨%b, %hIb, Hb⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, H7⟩
      have ha : a = P1 m c := inv1_full m c t.val ht.1 a hIa
      subst ha
      iapply (run2 c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) h1 h2 h3 (blkA m c t) (blkB1 m c t) (blkW2 m c t) (P1 m c) b)
      isplitl [H1]; · iexact H1
      isplitl [H4]; · iexact H4
      isplitl [H5]; · iexact H5
      isplitl [Ha]; · iexact Ha
      isplitl [Hb]; · iexact Hb
      iintro ⟨H1, H4, H5, Ha, ⟨%b', %hU, Hb⟩⟩
      isplitl [Ha Hb Hp]
      · isplitl [Ha]; · iexists _; isplitr; (· ipureintro; exact inv1_mono m c t.val _ ht.1 _ hIa); iexact Ha
        isplitl [Hb]; · iexists b'; isplitr; (· ipureintro; exact inv2_step m c t h2 b b' hIb hU); iexact Hb
        iexact Hp
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-! ## The launch -/

theorem ownSemFacts : Pipeline.OwnSemFacts spec0 osem := by decide

theorem ends_eq (c : Dev nD) (W : (b : Ref sig .tc) → Buf (Elt F) ((c : Thread nD τ).loc b)) :
    (Ends spec0 osem ∅ c W : sProp 𝕄)
      = iprop(emp ∗ emp ∗ ((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)) ∗ ∃ r, prngReg c r) := by
  unfold Ends Pipeline.routed; rw [bigSep_empty, Pipeline.ownSems0_eq_of_list c osem [] (by decide) (by decide), scopedRest0_eq]; rfl

/-- Before the first point nothing is asked of the scratch arrays' contents. -/
theorem hin (c : Dev nD) : (Ends spec0 osem ∅ c (V m c) : sProp 𝕄) ⊢ (dats m 0 c).Φ 0 := by
  rw [ends_eq, show (dats m 0 c).Φ 0 = Φv m c 0 from rfl]
  unfold Φv
  iintro ⟨-, -, ⟨⟨%f, Hf⟩, ⟨%g, Hg⟩⟩, Hp⟩
  isplitl [Hf]
  · iexists f; isplitr; (· ipureintro; exact inv1_zero m c f)
    rw [owns_whole_eq]; iexists f; isplitr; (· ipureintro; rfl); iexact Hf
  isplitl [Hg]
  · iexists g; isplitr; (· ipureintro; exact inv2_low m c 0 (by omega) g)
    rw [owns_whole_eq]; iexists g; isplitr; (· ipureintro; rfl); iexact Hg
  iexact Hp

theorem hout (c : Dev nD) : (dats m 0 c).Φ (Fin.last cfg0.N) ⊢ (Ends spec0 osem ∅ c (V m c) : sProp 𝕄) := by
  rw [ends_eq, show (dats m 0 c).Φ (Fin.last cfg0.N) = Φv m c (Fin.last cfg0.N) from rfl]
  unfold Φv; simp only [owns_whole_eq]
  iintro ⟨⟨%a, %hIa, %f, %hf, Hf⟩, ⟨%b, %hIb, %g, %hg, Hg⟩, Hp⟩
  isplitr; · iempintro
  isplitr; · iempintro
  isplitl [Hf Hg]
  · isplitl [Hf]; · iexists f; iexact Hf
    iexists g; iexact Hg
  iexact Hp

/-- Every weakly fair execution of @main on the TensorCores terminates; the arrays end at the library's account of
    their windows, the buffers no window stages as the region found them. -/
theorem run_main : θ_run defs (onTc (τ := τ) (main (F := F))) (s₀ m ρ) (RoutedPost cfgs (dats m) 0 ∅ (V m) (V m)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (R := ∅) (hR := Finset.empty_subset _) (Y := V m) (hin := hin m) (hout := hout m)

/-- The argument arrays end as launched: a staged one by the library's account of an input window, the two
    one-dimensional biases (which no window stages: their reshaped copies are staged) by the post's last clause. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats m 0 c).arrAt_in 0 rfl _).trans (V_main_arg0 m c)),
      ((h c).1 1).trans (((dats m 0 c).arrAt_in 1 rfl _).trans (V_main_arg1 m c)),
      ((h c).1 2).trans (((dats m 0 c).arrAt_in 2 rfl _).trans (V_main_arg2 m c)),
      ((h c).1 3).trans (((dats m 0 c).arrAt_in 3 rfl _).trans (V_main_arg3 m c)),
      ((h c).2.2 main_arg4 (by rw [Finset.sdiff_empty]; exact Pipeline.mem_restRefs_of main_arg4 (by decide) (by decide))).trans (V_main_arg4 m c),
      ((h c).1 5).trans (((dats m 0 c).arrAt_in 5 rfl _).trans (V_main_arg5 m c)),
      ((h c).2.2 main_arg6 (by rw [Finset.sdiff_empty]; exact Pipeline.mem_restRefs_of main_arg6 (by decide) (by decide))).trans (V_main_arg6 m c)⟩) (run_main m ρ)

end Cert.Proof.KernelIdeal

end
-- ==== Proof.LibERealSums.lean ====
/- Sums over the extended reals: the algebra a graph kernel's two sides meet when a gather, a scatter-add or a segment
   sum is written on one side as a product with a 0/1 selector matrix and on the other as a sum over a fibre. On the
   extended reals `x * 1 = x`, `x * 0 = 0` and `0 * x = 0` hold for EVERY `x` (the infinite ones included) and addition
   is commutative and associative, so everything here holds with no finiteness hypothesis; multiplication does not
   distribute over addition there, so the two statements that need it (section 5) are for real numbers. -/
import Mathlib.Data.EReal.Basic
import Mathlib.Data.EReal.Operations
import Mathlib.Algebra.BigOperators.Fin
import Mathlib.Algebra.BigOperators.Group.Finset.Basic
import Idealize.ShloMosaic.PureOps.Ideal
import Idealize.ShloMosaic.PureOps.Ideal.Laws

namespace Cert.Proof.LibERealSums

open Finset

/-! ## 0. A 0/1 factor -/

/-- A factor that is `1` where a condition holds and `0` elsewhere keeps the term or drops it, for every extended real. -/
theorem mul_ite_one_zero (x : EReal) (c : Prop) [Decidable c] : x * (if c then 1 else 0) = if c then x else 0 := by
  split
  · exact mul_one x
  · exact mul_zero x

/-- The same with the factor in front. -/
theorem ite_one_zero_mul (x : EReal) (c : Prop) [Decidable c] : (if c then 1 else 0) * x = if c then x else 0 := by
  split
  · exact one_mul x
  · exact zero_mul x

/-! ## 1. A product with a selector matrix -/

section Selector
variable {K J C : Type*} [Fintype K] [DecidableEq J]

/-- Column `j` of a product with the selector matrix of `sel` (`1` at `(k, sel k)`, `0` elsewhere) is the sum of the
    terms whose index `sel` sends to `j`. -/
theorem sum_mul_selector (a : K → EReal) (sel : K → J) (j : J) :
    ∑ k, a k * (if sel k = j then 1 else 0) = ∑ k ∈ univ.filter (fun k => sel k = j), a k := by
  rw [sum_filter]
  exact sum_congr rfl fun k _ => mul_ite_one_zero _ _

/-- The same for a matrix `s` known to be that selector. -/
theorem sum_mul_of_selector (a : K → EReal) (sel : K → J) (s : K → J → EReal)
    (hs : ∀ k j, s k j = if sel k = j then 1 else 0) (j : J) :
    ∑ k, a k * s k j = ∑ k ∈ univ.filter (fun k => sel k = j), a k := by
  rw [← sum_mul_selector]
  exact sum_congr rfl fun k _ => by rw [hs]

/-- The selector in front. -/
theorem sum_selector_mul (a : K → EReal) (sel : K → J) (j : J) :
    ∑ k, (if sel k = j then 1 else 0) * a k = ∑ k ∈ univ.filter (fun k => sel k = j), a k := by
  rw [sum_filter]
  exact sum_congr rfl fun k _ => ite_one_zero_mul _ _

/-- Re-indexed over pairs, the selector reading the first component: what is left is the sum over the second. -/
theorem sum_prod_mul_selector [Fintype J] [Fintype C] (a : J × C → EReal) (j : J) :
    ∑ x : J × C, a x * (if x.1 = j then 1 else 0) = ∑ c, a (j, c) := by
  rw [Fintype.sum_prod_type, sum_eq_single j]
  · exact sum_congr rfl fun c _ => by rw [if_pos rfl, mul_one]
  · intro j' _ hne
    exact sum_eq_zero fun c _ => by rw [if_neg hne, mul_zero]
  · intro h
    exact absurd (mem_univ j) h

end Selector

/-! ## 2. One-hot pooling -/

section Pool
variable {N G : Type*} [Fintype N] [DecidableEq G]

/-- Pooling by a one-hot matrix: the sum of the values in segment `g`. -/
theorem sum_mul_onehot (v : N → EReal) (b : N → G) (g : G) :
    ∑ n, v n * (if b n = g then 1 else 0) = ∑ n ∈ univ.filter (fun n => b n = g), v n :=
  sum_mul_selector v b g

/-- The one-hot column summed: how many indices are in segment `g`. -/
theorem sum_onehot_eq_card (b : N → G) (g : G) :
    ∑ n, (if b n = g then (1 : EReal) else 0) = ((univ.filter fun n => b n = g).card : EReal) := by
  rw [← sum_filter, sum_const, nsmul_one]

end Pool

/-! ## 3. Padding -/

section Pad
variable {m p : ℕ}

/-- A sum over `m + p` indices whose last `p` terms are zero is the sum over the first `m`. -/
theorem sum_fin_add_of_tail_zero (f : Fin (m + p) → EReal) (h : ∀ i : Fin p, f (Fin.natAdd m i) = 0) :
    ∑ i, f i = ∑ i : Fin m, f (Fin.castAdd p i) := by
  rw [Fin.sum_univ_add, sum_eq_zero (fun i _ => h i), add_zero]

/-- The same for products whose left factor is zero on the padding: `0 * t = 0` whatever `t` is. -/
theorem sum_fin_add_mul_of_left_zero (g t : Fin (m + p) → EReal) (h : ∀ i : Fin p, g (Fin.natAdd m i) = 0) :
    ∑ i, g i * t i = ∑ i : Fin m, g (Fin.castAdd p i) * t (Fin.castAdd p i) :=
  sum_fin_add_of_tail_zero _ fun i => by rw [h i, zero_mul]

/-- The same with the zero factor on the right. -/
theorem sum_fin_add_mul_of_right_zero (g t : Fin (m + p) → EReal) (h : ∀ i : Fin p, t (Fin.natAdd m i) = 0) :
    ∑ i, g i * t i = ∑ i : Fin m, g (Fin.castAdd p i) * t (Fin.castAdd p i) :=
  sum_fin_add_of_tail_zero _ fun i => by rw [h i, mul_zero]

end Pad

/-! ## 4. Regrouping, and an accumulation as a sum over a fibre -/

section Regroup
variable {E W N : Type*} [Fintype E] [Fintype W] [DecidableEq W] [DecidableEq N]

/-- A sum over `E` regrouped by blocks: the blocks' sums, summed. -/
theorem sum_eq_sum_blocks (blk : E → W) (f : E → EReal) :
    ∑ e, f e = ∑ w, ∑ e ∈ univ.filter (fun e => blk e = w), f e :=
  (sum_fiberwise univ blk f).symm

/-- The same inside a fibre of `dst`: the sum over the edges into `n`, block by block. -/
theorem sum_fibre_eq_sum_blocks (blk : E → W) (dst : E → N) (f : E → EReal) (n : N) :
    ∑ e ∈ univ.filter (fun e => dst e = n), f e
      = ∑ w, ∑ e ∈ univ.filter (fun e => dst e = n ∧ blk e = w), f e := by
  rw [← sum_fiberwise (univ.filter fun e => dst e = n) blk f]
  exact sum_congr rfl fun w _ => by rw [filter_filter]

end Regroup

section Accumulate
variable {E N : Type*} [DecidableEq N]

/-- Adding `f e` at position `dst e`, edge by edge along a list, from `init`: position `n` ends at what it held plus the
    terms of the edges into `n`, in the list's order. -/
theorem foldl_update_add_apply (dst : E → N) (f : E → EReal) (l : List E) (init : N → EReal) (n : N) :
    (l.foldl (fun acc e => Function.update acc (dst e) (acc (dst e) + f e)) init) n
      = init n + ((l.filter fun e => dst e = n).map f).sum := by
  induction l generalizing init with
  | nil => simp
  | cons e l ih =>
    rw [List.foldl_cons, ih]
    by_cases h : dst e = n
    · rw [List.filter_cons_of_pos (by simpa using h), List.map_cons, List.sum_cons, h, Function.update_self, add_assoc]
    · rw [List.filter_cons_of_neg (by simpa using h), Function.update_of_ne (Ne.symm h)]

/-- The order of the edges does not matter: addition on the extended reals is commutative and associative. -/
theorem foldl_update_add_perm (dst : E → N) (f : E → EReal) {l₁ l₂ : List E} (h : l₁.Perm l₂) (init : N → EReal) :
    l₁.foldl (fun acc e => Function.update acc (dst e) (acc (dst e) + f e)) init
      = l₂.foldl (fun acc e => Function.update acc (dst e) (acc (dst e) + f e)) init := by
  funext n
  rw [foldl_update_add_apply, foldl_update_add_apply]
  exact congrArg _ (((h.filter _).map f).sum_eq)

/-- From zero, over a list that names every edge once: position `n` ends at the sum over the edges into `n`. -/
theorem foldl_update_add_eq_sum [Fintype E] [DecidableEq E] (dst : E → N) (f : E → EReal) (l : List E) (hnd : l.Nodup)
    (hall : ∀ e, e ∈ l) (n : N) :
    (l.foldl (fun acc e => Function.update acc (dst e) (acc (dst e) + f e)) (fun _ => (0 : EReal))) n
      = ∑ e ∈ univ.filter (fun e => dst e = n), f e := by
  rw [foldl_update_add_apply, zero_add, ← List.sum_toFinset f (hnd.filter _)]
  refine sum_congr ?_ fun _ _ => rfl
  ext e
  simp [List.mem_filter, hall e]

end Accumulate

/-! ## 5. Real numbers among the extended reals -/

section Coe
variable {ι : Type*}

/-- The embedding of the reals commutes with finite sums. -/
theorem coe_finset_sum (s : Finset ι) (f : ι → ℝ) : ((∑ i ∈ s, f i : ℝ) : EReal) = ∑ i ∈ s, (f i : EReal) := by
  classical
  refine Finset.induction_on s ?_ ?_
  · simp
  · intro a s ha ih
    rw [sum_insert ha, sum_insert ha, EReal.coe_add, ih]

/-- A real factor distributes over a finite sum of reals, read in the extended reals. -/
theorem coe_mul_sum (x : ℝ) (s : Finset ι) (f : ι → ℝ) :
    (x : EReal) * ∑ i ∈ s, (f i : EReal) = ∑ i ∈ s, (x : EReal) * (f i : EReal) := by
  rw [← coe_finset_sum, ← EReal.coe_mul, Finset.mul_sum, coe_finset_sum]
  exact sum_congr rfl fun i _ => EReal.coe_mul _ _

/-- The same with the factor behind. -/
theorem coe_sum_mul (x : ℝ) (s : Finset ι) (f : ι → ℝ) :
    (∑ i ∈ s, (f i : EReal)) * (x : EReal) = ∑ i ∈ s, (f i : EReal) * (x : EReal) := by
  rw [mul_comm, coe_mul_sum]
  exact sum_congr rfl fun i _ => mul_comm _ _

end Coe

/-! ## 6. Two contractions in a row

A product of three factors summed over two indices can be associated either way when every entry is a real number.
On the extended reals multiplication does not distribute over addition (`⊤ * (1 + (-1)) = 0`, while
`⊤ * 1 + ⊤ * (-1) = ⊤ + ⊥ = ⊥`), so this is where finiteness is used. -/

section Assoc
variable {K L : Type*} [Fintype K] [Fintype L]

/-- For real entries: `(a · B) · c = a · (B · c)`, each side read in the extended reals. -/
theorem coe_sum_sum_mul_assoc (a : K → ℝ) (b : K → L → ℝ) (c : L → ℝ) :
    ∑ l, (∑ k, (a k : EReal) * (b k l : EReal)) * (c l : EReal)
      = ∑ k, (a k : EReal) * ∑ l, (b k l : EReal) * (c l : EReal) := by
  have hl : ∀ l, (∑ k, (a k : EReal) * (b k l : EReal)) * (c l : EReal) = (((∑ k, a k * b k l) * c l : ℝ) : EReal) := fun l => by
    rw [EReal.coe_mul, coe_finset_sum]
    exact congrArg (· * (c l : EReal)) (sum_congr rfl fun k _ => (EReal.coe_mul _ _).symm)
  have hk : ∀ k, (a k : EReal) * ∑ l, (b k l : EReal) * (c l : EReal) = ((a k * ∑ l, b k l * c l : ℝ) : EReal) := fun k => by
    rw [EReal.coe_mul, coe_finset_sum]
    exact congrArg ((a k : EReal) * ·) (sum_congr rfl fun l _ => (EReal.coe_mul _ _).symm)
  rw [sum_congr rfl fun l _ => hl l, sum_congr rfl fun k _ => hk k, ← coe_finset_sum, ← coe_finset_sum]
  refine congrArg _ ?_
  simp only [Finset.sum_mul, Finset.mul_sum]
  rw [Finset.sum_comm]
  exact sum_congr rfl fun k _ => sum_congr rfl fun l _ => mul_assoc _ _ _

/-- An extended real that is neither infinity is a real number. -/
theorem eq_coe_of_finite {x : EReal} (h : x ≠ ⊤ ∧ x ≠ ⊥) : x = ((x.toReal : ℝ) : EReal) :=
  (EReal.coe_toReal h.1 h.2).symm

/-- The same for extended-real entries none of which is infinite. -/
theorem sum_sum_mul_assoc_of_finite (a : K → EReal) (b : K → L → EReal) (c : L → EReal)
    (ha : ∀ k, a k ≠ ⊤ ∧ a k ≠ ⊥) (hb : ∀ k l, b k l ≠ ⊤ ∧ b k l ≠ ⊥) (hc : ∀ l, c l ≠ ⊤ ∧ c l ≠ ⊥) :
    ∑ l, (∑ k, a k * b k l) * c l = ∑ k, a k * ∑ l, b k l * c l := by
  have ea : a = fun k => (((a k).toReal : ℝ) : EReal) := funext fun k => eq_coe_of_finite (ha k)
  have eb : b = fun k l => (((b k l).toReal : ℝ) : EReal) := funext fun k => funext fun l => eq_coe_of_finite (hb k l)
  have ec : c = fun l => (((c l).toReal : ℝ) : EReal) := funext fun l => eq_coe_of_finite (hc l)
  rw [ea, eb, ec]
  exact coe_sum_sum_mul_assoc _ _ _

/-- A finite sum of real numbers is not infinite. -/
theorem sum_coe_finite {ι : Type*} (s : Finset ι) (f : ι → ℝ) : (∑ i ∈ s, (f i : EReal)) ≠ ⊤ ∧ (∑ i ∈ s, (f i : EReal)) ≠ ⊥ := by
  rw [← coe_finset_sum]
  exact ⟨EReal.coe_ne_top _, EReal.coe_ne_bot _⟩

end Assoc

end Cert.Proof.LibERealSums
-- ==== Proof.Spec.lean ====
/-
  The mathematics of the two sides, over abstract finite index types, on the extended reals.
  With `H0 = relu(X · W0)` the reference computes `H1 = relu((A · H0) · W1 + b1)` and `out = (A · H1) · W2 + b2`;
  the kernel computes `P1 = H0 · W1`, `H1' = relu(A · P1 + b1)`, `P2 = H1' · W2` and `out' = A · P2 + b2`.
  The two agree when every entry of X, A, W0, W1, b1, W2 is a real number: then `A · (H0 · W1) = (A · H0) · W1` and
  `A · (H1 · W2) = (A · H1) · W2` (matrix products of real matrices re-associate; on the extended reals in general they
  do not, because multiplication does not distribute over addition at the infinities), the entries of `H0` and `H1`
  being real numbers again: finite sums, products and maxima of real numbers.
-/
import proofs.«125068_g44581760532749_cont_8to1c4_205_3_alg».proof.Proof.LibERealSums
import Idealize.ShloMosaic.Lib.ValueIdx

noncomputable section

namespace Cert.Proof.Spec

open Finset Cert.Proof.LibERealSums Idealize.ShloMosaic Idealize.ShloMosaic.ValueIdx

/-- A rank-2 array of extended reals read as a matrix, a rank-1 array as a vector. -/
abbrev mat {r c : ℕ} (x : (⟨2, ![r, c]⟩ : Shape).Idx → EReal) : Fin r → Fin c → EReal := fun a b => x (ix2 a b)
abbrev vec {n : ℕ} (x : (⟨1, ![n]⟩ : Shape).Idx → EReal) : Fin n → EReal := fun a => x (ix1 a)

/-- Neither infinity: a real number. -/
def IsFin (x : EReal) : Prop := x ≠ ⊤ ∧ x ≠ ⊥

theorem isFin_coe (r : ℝ) : IsFin (r : EReal) := ⟨EReal.coe_ne_top r, EReal.coe_ne_bot r⟩
theorem IsFin.exists_coe {x : EReal} (h : IsFin x) : ∃ r : ℝ, x = (r : EReal) := ⟨x.toReal, eq_coe_of_finite h⟩
theorem isFin_zero : IsFin (0 : EReal) := by simpa using isFin_coe 0
theorem IsFin.mul {x y : EReal} (hx : IsFin x) (hy : IsFin y) : IsFin (x * y) := by
  obtain ⟨a, rfl⟩ := hx.exists_coe; obtain ⟨b, rfl⟩ := hy.exists_coe
  rw [← EReal.coe_mul]; exact isFin_coe _
theorem IsFin.add {x y : EReal} (hx : IsFin x) (hy : IsFin y) : IsFin (x + y) := by
  obtain ⟨a, rfl⟩ := hx.exists_coe; obtain ⟨b, rfl⟩ := hy.exists_coe
  rw [← EReal.coe_add]; exact isFin_coe _
theorem IsFin.max {x y : EReal} (hx : IsFin x) (hy : IsFin y) : IsFin (max x y) := by
  rcases max_choice x y with h | h <;> rw [h] <;> assumption
theorem isFin_sum {ι : Type*} (s : Finset ι) (f : ι → EReal) (h : ∀ i, IsFin (f i)) : IsFin (∑ i ∈ s, f i) := by
  have e : f = fun i => (((f i).toReal : ℝ) : EReal) := funext fun i => eq_coe_of_finite (h i)
  rw [e]; exact sum_coe_finite s _

section Sides
variable {N V H O : Type*} [Fintype N] [Fintype V] [Fintype H] [Fintype O]
variable (X : N → V → EReal) (A : N → N → EReal) (W0 : V → H → EReal) (W1 : H → H → EReal) (b1 : H → EReal)
  (W2 : H → O → EReal) (b2 : O → EReal)

/-- `H0 = relu(X · W0)`. -/
def h0 (l : N) (i : H) : EReal := max (∑ v, X l v * W0 v i) 0
/-- The reference's hidden layer: `relu((A · H0) · W1 + b1)`. -/
def refH1 (k : N) (j : H) : EReal := max (∑ i, (∑ l, A k l * h0 X W0 l i) * W1 i j + b1 j) 0
/-- The reference's result: `(A · H1) · W2 + b2`. -/
def refOut (r : N) (q : O) : EReal := ∑ j, (∑ k, A r k * refH1 X A W0 W1 b1 k j) * W2 j q + b2 q
/-- The kernel's first scratch array: `P1 = H0 · W1`. -/
def p1 (l : N) (j : H) : EReal := ∑ i, h0 X W0 l i * W1 i j
/-- The kernel's hidden layer: `relu(A · P1 + b1)`. -/
def kerH1 (k : N) (j : H) : EReal := max (∑ l, A k l * p1 X W0 W1 l j + b1 j) 0
/-- The kernel's second scratch array: `P2 = H1' · W2`. -/
def p2 (k : N) (q : O) : EReal := ∑ j, kerH1 X A W0 W1 b1 k j * W2 j q
/-- The kernel's result: `A · P2 + b2`. -/
def kerOut (r : N) (q : O) : EReal := ∑ k, A r k * p2 X A W0 W1 b1 W2 k q + b2 q

variable {X A W0 W1 b1 W2 b2}

theorem isFin_h0 (hX : ∀ l v, IsFin (X l v)) (hW0 : ∀ v i, IsFin (W0 v i)) (l : N) (i : H) : IsFin (h0 X W0 l i) :=
  (isFin_sum _ _ fun v => (hX l v).mul (hW0 v i)).max isFin_zero

/-- The two hidden layers agree: `A · (H0 · W1) = (A · H0) · W1` for real entries. -/
theorem kerH1_eq_refH1 (hX : ∀ l v, IsFin (X l v)) (hA : ∀ k l, IsFin (A k l)) (hW0 : ∀ v i, IsFin (W0 v i))
    (hW1 : ∀ i j, IsFin (W1 i j)) (k : N) (j : H) : kerH1 X A W0 W1 b1 k j = refH1 X A W0 W1 b1 k j := by
  unfold kerH1 refH1 p1
  rw [sum_sum_mul_assoc_of_finite (fun l => A k l) (fun l i => h0 X W0 l i) (fun i => W1 i j) (fun l => hA k l)
    (fun l i => isFin_h0 hX hW0 l i) (fun i => hW1 i j)]

theorem isFin_refH1 (hX : ∀ l v, IsFin (X l v)) (hA : ∀ k l, IsFin (A k l)) (hW0 : ∀ v i, IsFin (W0 v i))
    (hW1 : ∀ i j, IsFin (W1 i j)) (hb1 : ∀ j, IsFin (b1 j)) (k : N) (j : H) : IsFin (refH1 X A W0 W1 b1 k j) :=
  ((isFin_sum _ _ fun i => (isFin_sum _ _ fun l => (hA k l).mul (isFin_h0 hX hW0 l i)).mul (hW1 i j)).add (hb1 j)).max isFin_zero

/-- The two results agree: `A · (H1 · W2) = (A · H1) · W2` for real entries. -/
theorem kerOut_eq_refOut (hX : ∀ l v, IsFin (X l v)) (hA : ∀ k l, IsFin (A k l)) (hW0 : ∀ v i, IsFin (W0 v i))
    (hW1 : ∀ i j, IsFin (W1 i j)) (hb1 : ∀ j, IsFin (b1 j)) (hW2 : ∀ j q, IsFin (W2 j q)) (r : N) (q : O) :
    kerOut X A W0 W1 b1 W2 b2 r q = refOut X A W0 W1 b1 W2 b2 r q := by
  unfold kerOut refOut p2
  have e : (fun k j => kerH1 X A W0 W1 b1 k j) = fun k j => refH1 X A W0 W1 b1 k j :=
    funext fun k => funext fun j => kerH1_eq_refH1 hX hA hW0 hW1 k j
  rw [show (∑ k, A r k * ∑ j, kerH1 X A W0 W1 b1 k j * W2 j q) = ∑ k, A r k * ∑ j, refH1 X A W0 W1 b1 k j * W2 j q from
    sum_congr rfl fun k _ => by rw [sum_congr rfl fun j _ => by rw [kerH1_eq_refH1 hX hA hW0 hW1 k j]]]
  rw [sum_sum_mul_assoc_of_finite (fun k => A r k) (fun k j => refH1 X A W0 W1 b1 k j) (fun j => W2 j q) (fun k => hA r k)
    (fun k j => isFin_refH1 hX hA hW0 hW1 hb1 k j) (fun j => hW2 j q)]

end Sides

end Cert.Proof.Spec

end
-- ==== Proof.KernelIdealValue.lean ====
/-
  The value of `KernelIdeal` at the extended reals: what its result array holds, index by index.
  Each payload of the body is read at an index: a matrix product into a zero accumulator is the sum over the
  contracted index, `maximumf` against the zero splat is the maximum with zero, a bias row broadcast along the rows
  is read at its column. The blocks the pipeline stages are read off the argument arrays (block `s` of X holds rows
  `2000 s …`, block `j` of A rows `400 j …`, the weights and the biases whole), so the two scratch arrays are `P1 = H0 · W1`
  and `P2 = relu(A · P1 + b1) · W2` of the argument arrays, and the block a phase-three point stores is rows
  `400 (s - 30) …` of `A · P2 + b2`; those 25 blocks cover the result.
-/
import proofs.«125068_g44581760532749_cont_8to1c4_205_3_alg».proof.Proof.KernelIdealRun
import proofs.«125068_g44581760532749_cont_8to1c4_205_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.Proof.KernelIdeal

open Cert.KernelIdeal Cert.KernelIdeal.Gen
open Idealize.ShloMosaic Idealize.ShloMosaic.TcCoe Idealize.ShloMosaic.ValueIdx Idealize.SL.Sem
open Idealize.ShloMosaic.Pipeline (Dat)
open Cert.Proof.Spec

theorem hz : (![0, 0] : Fin 2 → Nat) = fun _ => 0 := funext fun a => by fin_cases a <;> rfl

/-! ## The payloads at an index -/

theorem mm_xw0_l0 (i : S2000x64.Idx) (q : dot_S2000x512_S512x64_S2000x64_1_0_0_1_n_n.contr.Idx) : (dot_S2000x512_S512x64_S2000x64_1_0_0_1_n_n.lhsIdx i q 0).val = (i 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl
theorem mm_xw0_r1 (i : S2000x64.Idx) (q : dot_S2000x512_S512x64_S2000x64_1_0_0_1_n_n.contr.Idx) : (dot_S2000x512_S512x64_S2000x64_1_0_0_1_n_n.rhsIdx i q 1).val = (i 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl
/-- A product of an (2000, 512) block with a (512, 64) block into a zero accumulator, at `(p, q)`: the sum over the contracted index. -/
theorem mm_xw0 (l : FVec Ideal S2000x512 .f32) (r : FVec Ideal S512x64 .f32) (p : Fin 2000) (q : Fin 64) :
    matmul dot_S2000x512_S512x64_S2000x64_1_0_0_1_n_n none l r (constant (F := Ideal) S2000x64 .f32 0x00000000#32) (ix2 p q) = ∑ k : Fin 512, l (ix2 p k) * r (ix2 k q) := by
  simp only [matmul]
  rw [Ideal.matmul_constant_zero_apply, ← Equiv.sum_comp (ValueIdx.contrEquiv1 dot_S2000x512_S512x64_S2000x64_1_0_0_1_n_n 512 rfl rfl).symm]
  refine Finset.sum_congr rfl fun k _ => ?_
  have hk := ValueIdx.contrEquiv1_symm_val dot_S2000x512_S512x64_S2000x64_1_0_0_1_n_n 512 rfl rfl k
  have el : dot_S2000x512_S512x64_S2000x64_1_0_0_1_n_n.lhsIdx (ix2 p q) ((ValueIdx.contrEquiv1 dot_S2000x512_S512x64_S2000x64_1_0_0_1_n_n 512 rfl rfl).symm k) = ix2 p k := funext fun a => Fin.ext (by
    match a with
    | ⟨0, _⟩ => exact mm_xw0_l0 _ _
    | ⟨1, _⟩ => exact (dot_S2000x512_S512x64_S2000x64_1_0_0_1_n_n.lhsIdx_val_of_single rfl _ _).trans hk)
  have er : dot_S2000x512_S512x64_S2000x64_1_0_0_1_n_n.rhsIdx (ix2 p q) ((ValueIdx.contrEquiv1 dot_S2000x512_S512x64_S2000x64_1_0_0_1_n_n 512 rfl rfl).symm k) = ix2 k q := funext fun a => Fin.ext (by
    match a with
    | ⟨0, _⟩ => exact (dot_S2000x512_S512x64_S2000x64_1_0_0_1_n_n.rhsIdx_val_of_single rfl _ _).trans hk
    | ⟨1, _⟩ => exact mm_xw0_r1 _ _)
  rw [el, er]

theorem mm_hw1_l0 (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem mm_hw1_r1 (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl
/-- A product of an (2000, 64) block with a (64, 64) block into a zero accumulator, at `(p, q)`: the sum over the contracted index. -/
theorem mm_hw1 (l : FVec Ideal S2000x64 .f32) (r : FVec Ideal S64x64 .f32) (p : Fin 2000) (q : Fin 64) :
    matmul dot_S2000x64_S64x64_S2000x64_1_0_0_1_n_n none l r (constant (F := Ideal) S2000x64 .f32 0x00000000#32) (ix2 p q) = ∑ k : Fin 64, l (ix2 p k) * r (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact mm_hw1_l0 _ _
    | ⟨1, _⟩ => exact (dot_S2000x64_S64x64_S2000x64_1_0_0_1_n_n.lhsIdx_val_of_single rfl _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (dot_S2000x64_S64x64_S2000x64_1_0_0_1_n_n.rhsIdx_val_of_single rfl _ _).trans hk
    | ⟨1, _⟩ => exact mm_hw1_r1 _ _)
  rw [el, er]

theorem mm_ap_l0 (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem mm_ap_r1 (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl
/-- A product of an (400, 10000) block with a (10000, 64) block into a zero accumulator, at `(p, q)`: the sum over the contracted index. -/
theorem mm_ap (l : FVec Ideal S400x10000 .f32) (r : FVec Ideal S10000x64 .f32) (p : Fin 400) (q : Fin 64) :
    matmul dot_S400x10000_S10000x64_S400x64_1_0_0_1_n_n none l r (constant (F := Ideal) S400x64 .f32 0x00000000#32) (ix2 p q) = ∑ k : Fin 10000, l (ix2 p k) * r (ix2 k q) := by
  simp only [matmul]
  rw [Ideal.matmul_constant_zero_apply, ← Equiv.sum_comp (ValueIdx.contrEquiv1 dot_S400x10000_S10000x64_S400x64_1_0_0_1_n_n 10000 rfl rfl).symm]
  refine Finset.sum_congr rfl fun k _ => ?_
  have hk := ValueIdx.contrEquiv1_symm_val dot_S400x10000_S10000x64_S400x64_1_0_0_1_n_n 10000 rfl rfl k
  have el : dot_S400x10000_S10000x64_S400x64_1_0_0_1_n_n.lhsIdx (ix2 p q) ((ValueIdx.contrEquiv1 dot_S400x10000_S10000x64_S400x64_1_0_0_1_n_n 10000 rfl rfl).symm k) = ix2 p k := funext fun a => Fin.ext (by
    match a with
    | ⟨0, _⟩ => exact mm_ap_l0 _ _
    | ⟨1, _⟩ => exact (dot_S400x10000_S10000x64_S400x64_1_0_0_1_n_n.lhsIdx_val_of_single rfl _ _).trans hk)
  have er : dot_S400x10000_S10000x64_S400x64_1_0_0_1_n_n.rhsIdx (ix2 p q) ((ValueIdx.contrEquiv1 dot_S400x10000_S10000x64_S400x64_1_0_0_1_n_n 10000 rfl rfl).symm k) = ix2 k q := funext fun a => Fin.ext (by
    match a with
    | ⟨0, _⟩ => exact (dot_S400x10000_S10000x64_S400x64_1_0_0_1_n_n.rhsIdx_val_of_single rfl _ _).trans hk
    | ⟨1, _⟩ => exact mm_ap_r1 _ _)
  rw [el, er]

theorem mm_hw2_l0 (i : S400x64.Idx) (q : dot_S400x64_S64x64_S400x64_1_0_0_1_n_n.contr.Idx) : (dot_S400x64_S64x64_S400x64_1_0_0_1_n_n.lhsIdx i q 0).val = (i 0).val := by
  unfold DotDims.lhsIdx
  rw [dif_neg (show ¬(0 : Fin S400x64.rank) ∈ dot_S400x64_S64x64_S400x64_1_0_0_1_n_n.lhsBatch by decide), dif_pos (show (0 : Fin S400x64.rank) ∈ dot_S400x64_S64x64_S400x64_1_0_0_1_n_n.lhsNonContracting by decide)]
  rfl
theorem mm_hw2_r1 (i : S400x64.Idx) (q : dot_S400x64_S64x64_S400x64_1_0_0_1_n_n.contr.Idx) : (dot_S400x64_S64x64_S400x64_1_0_0_1_n_n.rhsIdx i q 1).val = (i 1).val := by
  unfold DotDims.rhsIdx
  rw [dif_neg (show ¬(1 : Fin S64x64.rank) ∈ dot_S400x64_S64x64_S400x64_1_0_0_1_n_n.rhsBatch by decide), dif_pos (show (1 : Fin S64x64.rank) ∈ dot_S400x64_S64x64_S400x64_1_0_0_1_n_n.rhsNonContracting by decide)]
  rfl
/-- A product of an (400, 64) block with a (64, 64) block into a zero accumulator, at `(p, q)`: the sum over the contracted index. -/
theorem mm_hw2 (l : FVec Ideal S400x64 .f32) (r : FVec Ideal S64x64 .f32) (p : Fin 400) (q : Fin 64) :
    matmul dot_S400x64_S64x64_S400x64_1_0_0_1_n_n none l r (constant (F := Ideal) S400x64 .f32 0x00000000#32) (ix2 p q) = ∑ k : Fin 64, l (ix2 p k) * r (ix2 k q) := by
  simp only [matmul]
  rw [Ideal.matmul_constant_zero_apply, ← Equiv.sum_comp (ValueIdx.contrEquiv1 dot_S400x64_S64x64_S400x64_1_0_0_1_n_n 64 rfl rfl).symm]
  refine Finset.sum_congr rfl fun k _ => ?_
  have hk := ValueIdx.contrEquiv1_symm_val dot_S400x64_S64x64_S400x64_1_0_0_1_n_n 64 rfl rfl k
  have el : dot_S400x64_S64x64_S400x64_1_0_0_1_n_n.lhsIdx (ix2 p q) ((ValueIdx.contrEquiv1 dot_S400x64_S64x64_S400x64_1_0_0_1_n_n 64 rfl rfl).symm k) = ix2 p k := funext fun a => Fin.ext (by
    match a with
    | ⟨0, _⟩ => exact mm_hw2_l0 _ _
    | ⟨1, _⟩ => exact (dot_S400x64_S64x64_S400x64_1_0_0_1_n_n.lhsIdx_val_of_single rfl _ _).trans hk)
  have er : dot_S400x64_S64x64_S400x64_1_0_0_1_n_n.rhsIdx (ix2 p q) ((ValueIdx.contrEquiv1 dot_S400x64_S64x64_S400x64_1_0_0_1_n_n 64 rfl rfl).symm k) = ix2 k q := funext fun a => Fin.ext (by
    match a with
    | ⟨0, _⟩ => exact (dot_S400x64_S64x64_S400x64_1_0_0_1_n_n.rhsIdx_val_of_single rfl _ _).trans hk
    | ⟨1, _⟩ => exact mm_hw2_r1 _ _)
  rw [el, er]

/-- The zero word is the real number zero. -/
theorem zero_word : (Scalar.ofBits (F := Ideal) .f32 0x00000000#32 : Ideal .f32) = (0 : EReal) := Ideal.ofBits_zero_f32

/-- A (1, 64) row broadcast to (400, 64), at `(p, q)`: the row at `q`. -/
theorem bias_at (x : FVec Ideal S1x64 .f32) (p : Fin 400) (q : Fin 64) :
    broadcastTo S400x64 (shapeCast S1x64 x shapeCasts_S1x64_S1x64) broadcasts_S1x64_S400x64 (ix2 p q) = x (ix2 0 q) := by
  rw [shapeCast_self]
  exact broadcastTo_apply x broadcasts_S1x64_S400x64 (ix2 p q) (ix2 0 q) (fun a => match a with
    | ⟨0, _⟩ => rfl
    | ⟨1, _⟩ => rfl)

/-- What a phase-one point stores, at `(p, j)`: `(relu(X_blk · W0) · W1)(p, j)`. -/
theorem pay1_at (x0 : Vec Ideal S2000x512 .f32) (x2 : Vec Ideal S512x64 .f32) (x3 : Vec Ideal S64x64 .f32) (p : Fin 2000) (j : Fin 64) :
    pay1v x0 x2 x3 (ix2 p j) = ∑ i : Fin 64, max (∑ v : Fin 512, x0 (ix2 p v) * x2 (ix2 v i)) 0 * x3 (ix2 i j) := by
  show k0_pay1 (View.ld x0 rX) (View.ld x2 rW0) (View.ld x3 rW) (ix2 p j) = _
  rw [View.ld_unit_zero (S := S2000x512) hz, View.ld_unit_zero (S := S512x64) hz, View.ld_unit_zero (S := S64x64) hz]
  unfold k0_pay1
  rw [shapeCast_self, mm_hw1]
  refine Finset.sum_congr rfl fun i _ => ?_
  rw [maximumf_apply, mm_xw0, broadcast_apply, zero_word]

/-- What a phase-two point stores, at `(p, q)`: `(relu(A_blk · P1 + b1) · W2)(p, q)`. -/
theorem pay2_at (x1 : Vec Ideal S400x10000 .f32) (a : Vec Ideal S10000x64 .f32) (x4 : Vec Ideal S1x64 .f32) (x5 : Vec Ideal S64x64 .f32)
    (p : Fin 400) (q : Fin 64) :
    pay2v x1 a x4 x5 (ix2 p q)
      = ∑ j : Fin 64, max (∑ l : Fin 10000, x1 (ix2 p l) * a (ix2 l j) + x4 (ix2 0 j)) 0 * x5 (ix2 j q) := by
  show k0_pay2 (View.ld x1 rA) (View.ld a rS) (View.ld x4 rB) (View.ld x5 rW) (ix2 p q) = _
  rw [View.ld_unit_zero (S := S400x10000) hz, View.ld_unit_zero (S := S10000x64) hz, View.ld_unit_zero (S := S1x64) hz,
    View.ld_unit_zero (S := S64x64) hz]
  unfold k0_pay2
  rw [shapeCast_self, mm_hw2]
  refine Finset.sum_congr rfl fun j _ => ?_
  rw [maximumf_apply, addf_apply, mm_ap, bias_at, broadcast_apply, zero_word]

/-- The output block a phase-three point stores, at `(p, q)`: `(A_blk · P2 + b2)(p, q)`. -/
theorem out_at (x1 : Vec Ideal S400x10000 .f32) (b : Vec Ideal S10000x64 .f32) (x6 : Vec Ideal S1x64 .f32) (p : Fin 400) (q : Fin 64) :
    outv x1 b x6 (ix2 p q) = ∑ k : Fin 10000, x1 (ix2 p k) * b (ix2 k q) + x6 (ix2 0 q) := by
  unfold outv
  rw [View.canon_unit_zero hz, View.ld_unit_zero (S := S400x10000) hz, View.ld_unit_zero (S := S10000x64) hz,
    View.ld_unit_zero (S := S1x64) hz]
  unfold k0_pay3
  rw [addf_apply, mm_ap, bias_at]

variable (m : (ℓ : Loc nD τ sig) → Buf (Elt Ideal) ℓ)

/-! ## Where the windows' blocks sit in their arrays -/

theorem idx0_eq : ∀ (t : Fin cfg0.N) (a : Fin 2),
    (cfg0.win 0).index t a * (cfg0.win 0).size a = (![2000 * (if t.val < 5 then t.val else 0), 0] : Fin 2 → Nat) a := by decide +kernel
theorem idx1_eq : ∀ (t : Fin cfg0.N) (a : Fin 2),
    (cfg0.win 1).index t a * (cfg0.win 1).size a
      = (![400 * (if t.val < 5 then 0 else if t.val < 30 then t.val - 5 else t.val - 30), 0] : Fin 2 → Nat) a := by decide +kernel
theorem idx7_eq : ∀ (t : Fin cfg0.N) (a : Fin 2),
    (cfg0.win 7).index t a * (cfg0.win 7).size a = (![400 * (if t.val < 30 then 0 else t.val - 30), 0] : Fin 2 → Nat) a := by decide +kernel
theorem idx2_eq : ∀ (t : Fin cfg0.N) (a : Fin 2), (cfg0.win 2).index t a * (cfg0.win 2).size a = 0 := by decide +kernel
theorem emb2_val (t : Fin cfg0.N) (y : ((cfg0.win 2).xblock (cfg0.grid.coords t)).Idx) (a : Fin 2) :
    (((cfg0.win 2).blk t).view.emb y a).val = (y a).val := by
  show (cfg0.win 2).index t a * (cfg0.win 2).size a + 1 * (y a).val = _
  rw [idx2_eq]; omega
theorem idx3_eq : ∀ (t : Fin cfg0.N) (a : Fin 2), (cfg0.win 3).index t a * (cfg0.win 3).size a = 0 := by decide +kernel
theorem emb3_val (t : Fin cfg0.N) (y : ((cfg0.win 3).xblock (cfg0.grid.coords t)).Idx) (a : Fin 2) :
    (((cfg0.win 3).blk t).view.emb y a).val = (y a).val := by
  show (cfg0.win 3).index t a * (cfg0.win 3).size a + 1 * (y a).val = _
  rw [idx3_eq]; omega
theorem idx4_eq : ∀ (t : Fin cfg0.N) (a : Fin 2), (cfg0.win 4).index t a * (cfg0.win 4).size a = 0 := by decide +kernel
theorem emb4_val (t : Fin cfg0.N) (y : ((cfg0.win 4).xblock (cfg0.grid.coords t)).Idx) (a : Fin 2) :
    (((cfg0.win 4).blk t).view.emb y a).val = (y a).val := by
  show (cfg0.win 4).index t a * (cfg0.win 4).size a + 1 * (y a).val = _
  rw [idx4_eq]; omega
theorem idx5_eq : ∀ (t : Fin cfg0.N) (a : Fin 2), (cfg0.win 5).index t a * (cfg0.win 5).size a = 0 := by decide +kernel
theorem emb5_val (t : Fin cfg0.N) (y : ((cfg0.win 5).xblock (cfg0.grid.coords t)).Idx) (a : Fin 2) :
    (((cfg0.win 5).blk t).view.emb y a).val = (y a).val := by
  show (cfg0.win 5).index t a * (cfg0.win 5).size a + 1 * (y a).val = _
  rw [idx5_eq]; omega
theorem idx6_eq : ∀ (t : Fin cfg0.N) (a : Fin 2), (cfg0.win 6).index t a * (cfg0.win 6).size a = 0 := by decide +kernel
theorem emb6_val (t : Fin cfg0.N) (y : ((cfg0.win 6).xblock (cfg0.grid.coords t)).Idx) (a : Fin 2) :
    (((cfg0.win 6).blk t).view.emb y a).val = (y a).val := by
  show (cfg0.win 6).index t a * (cfg0.win 6).size a + 1 * (y a).val = _
  rw [idx6_eq]; omega

/-- X's window places index `y` of its block at point `t` at row `2000 t + y₀` (block 0 from point 5 on). -/
theorem emb0_val (t : Fin cfg0.N) (y : ((cfg0.win 0).xblock (cfg0.grid.coords t)).Idx) (a : Fin 2) :
    (((cfg0.win 0).blk t).view.emb y a).val = (![2000 * (if t.val < 5 then t.val else 0), 0] : Fin 2 → Nat) a + (y a).val := by
  show (cfg0.win 0).index t a * (cfg0.win 0).size a + 1 * (y a).val = _
  rw [idx0_eq]; omega
/-- A's window: block `t - 5` in phase two, block `t - 30` in phase three, 400 rows each. -/
theorem emb1_val (t : Fin cfg0.N) (y : ((cfg0.win 1).xblock (cfg0.grid.coords t)).Idx) (a : Fin 2) :
    (((cfg0.win 1).blk t).view.emb y a).val
      = (![400 * (if t.val < 5 then 0 else if t.val < 30 then t.val - 5 else t.val - 30), 0] : Fin 2 → Nat) a + (y a).val := by
  show (cfg0.win 1).index t a * (cfg0.win 1).size a + 1 * (y a).val = _
  rw [idx1_eq]; omega
/-- The result's window: block `t - 30` in phase three. -/
theorem emb7_val (t : Fin cfg0.N) (y : ((cfg0.win 7).xblock (cfg0.grid.coords t)).Idx) (a : Fin 2) :
    (((cfg0.win 7).blk t).view.emb y a).val = (![400 * (if t.val < 30 then 0 else t.val - 30), 0] : Fin 2 → Nat) a + (y a).val := by
  show (cfg0.win 7).index t a * (cfg0.win 7).size a + 1 * (y a).val = _
  rw [idx7_eq]; omega

/-- X's block at a phase-one point `t`: rows `2000 t …` of X. -/
theorem blkX_at (c : Dev nD) (t : Fin cfg0.N) (ht : t.val < 5) (p : Fin 2000) (v : Fin 512) (r : Fin 10000)
    (hr : r.val = 2000 * t.val + p.val) : blkX m c t (ix2 p v) = m ((c : Thread nD τ).loc main_arg0) (ix2 r v) := by
  show V m c main_arg0 (((cfg0.win 0).blk t).view.emb (ix2 p v)) = _
  rw [V_main_arg0]
  refine congrArg _ (funext fun a => Fin.ext ?_)
  rw [emb0_val, if_pos ht]
  match a with
  | ⟨0, _⟩ => show 2000 * t.val + p.val = r.val; omega
  | ⟨1, _⟩ => show 0 + v.val = v.val; omega

/-- A's block at a phase-two point `t`: rows `400 (t - 5) …` of A. -/
theorem blkA_at2 (c : Dev nD) (t : Fin cfg0.N) (ht : 5 ≤ t.val ∧ t.val < 30) (p : Fin 400) (l : Fin 10000) (r : Fin 10000)
    (hr : r.val = 400 * (t.val - 5) + p.val) : blkA m c t (ix2 p l) = m ((c : Thread nD τ).loc main_arg1) (ix2 r l) := by
  show V m c main_arg1 (((cfg0.win 1).blk t).view.emb (ix2 p l)) = _
  rw [V_main_arg1]
  refine congrArg _ (funext fun a => Fin.ext ?_)
  rw [emb1_val, if_neg (by omega), if_pos ht.2]
  match a with
  | ⟨0, _⟩ => show 400 * (t.val - 5) + p.val = r.val; omega
  | ⟨1, _⟩ => show 0 + l.val = l.val; omega

/-- A's block at a phase-three point `t`: rows `400 (t - 30) …` of A. -/
theorem blkA_at3 (c : Dev nD) (t : Fin cfg0.N) (ht : 30 ≤ t.val) (p : Fin 400) (l : Fin 10000) (r : Fin 10000)
    (hr : r.val = 400 * (t.val - 30) + p.val) : blkA m c t (ix2 p l) = m ((c : Thread nD τ).loc main_arg1) (ix2 r l) := by
  show V m c main_arg1 (((cfg0.win 1).blk t).view.emb (ix2 p l)) = _
  rw [V_main_arg1]
  refine congrArg _ (funext fun a => Fin.ext ?_)
  rw [emb1_val, if_neg (by omega), if_neg (by omega)]
  match a with
  | ⟨0, _⟩ => show 400 * (t.val - 30) + p.val = r.val; omega
  | ⟨1, _⟩ => show 0 + l.val = l.val; omega

/-- Window 2 stages its whole array at every point. -/
theorem blkW0_eq (c : Dev nD) (t : Fin cfg0.N) (y : S512x64.Idx) : blkW0 m c t y = m ((c : Thread nD τ).loc main_arg2) y := by
  show V m c main_arg2 (((cfg0.win 2).blk t).view.emb y) = _
  rw [V_main_arg2]
  exact congrArg _ (funext fun a => Fin.ext (emb2_val t y a))

/-- Window 3 stages its whole array at every point. -/
theorem blkW1_eq (c : Dev nD) (t : Fin cfg0.N) (y : S64x64.Idx) : blkW1 m c t y = m ((c : Thread nD τ).loc main_arg3) y := by
  show V m c main_arg3 (((cfg0.win 3).blk t).view.emb y) = _
  rw [V_main_arg3]
  exact congrArg _ (funext fun a => Fin.ext (emb3_val t y a))

/-- Window 5 stages its whole array at every point. -/
theorem blkW2_eq (c : Dev nD) (t : Fin cfg0.N) (y : S64x64.Idx) : blkW2 m c t y = m ((c : Thread nD τ).loc main_arg5) y := by
  show V m c main_arg5 (((cfg0.win 5).blk t).view.emb y) = _
  rw [V_main_arg5]
  exact congrArg _ (funext fun a => Fin.ext (emb5_val t y a))

/-- The two bias rows the region finds: the host's reshapes of the bias vectors to one row. -/
theorem V_b1 (c : Dev nD) : (V m c main_call0_v0 : S1x64.Idx → EReal)
    = shapeCast S1x64 (m ((c : Thread nD τ).loc main_arg4)) shapeCasts_S64_S1x64 := by
  dsimp only [V, hostOps0]; after_results; rfl
theorem V_b2 (c : Dev nD) : (V m c main_call0_v1 : S1x64.Idx → EReal)
    = shapeCast S1x64 (m ((c : Thread nD τ).loc main_arg6)) shapeCasts_S64_S1x64 := by
  dsimp only [V, hostOps0]; after_results; rfl

/-- A vector reshaped to one row, at `(0, q)`: the vector at `q`. -/
theorem row_at (x : S64.Idx → EReal) (q : Fin 64) : shapeCast S1x64 x shapeCasts_S64_S1x64 (ix2 0 q) = x (ix1 q) :=
  shapeCast_apply x shapeCasts_S64_S1x64 (ix2 0 q) (ix1 q) (by
    rw [Shape.rowMajor_val_one, Shape.rowMajor_val_two]; show q.val = (0 : Fin 1).val * 64 + q.val; simp)

theorem blkB1_at (c : Dev nD) (t : Fin cfg0.N) (q : Fin 64) : blkB1 m c t (ix2 0 q) = m ((c : Thread nD τ).loc main_arg4) (ix1 q) := by
  show V m c main_call0_v0 (((cfg0.win 4).blk t).view.emb (ix2 0 q)) = _
  rw [show ((cfg0.win 4).blk t).view.emb (ix2 (0 : Fin 1) q) = ix2 (0 : Fin 1) q from funext fun a => Fin.ext (emb4_val t _ a), V_b1, row_at]
theorem blkB2_at (c : Dev nD) (t : Fin cfg0.N) (q : Fin 64) : blkB2 m c t (ix2 0 q) = m ((c : Thread nD τ).loc main_arg6) (ix1 q) := by
  show V m c main_call0_v1 (((cfg0.win 6).blk t).view.emb (ix2 0 q)) = _
  rw [show ((cfg0.win 6).blk t).view.emb (ix2 (0 : Fin 1) q) = ix2 (0 : Fin 1) q from funext fun a => Fin.ext (emb6_val t _ a), V_b2, row_at]

/-! ## The scratch arrays and the stored blocks, of the argument arrays -/

/-- The argument arrays as matrices and vectors. -/
abbrev mX (c : Dev nD) : Fin 10000 → Fin 512 → EReal := mat (r := 10000) (c := 512) (m ((c : Thread nD τ).loc main_arg0))
abbrev mA (c : Dev nD) : Fin 10000 → Fin 10000 → EReal := mat (r := 10000) (c := 10000) (m ((c : Thread nD τ).loc main_arg1))
abbrev mW0 (c : Dev nD) : Fin 512 → Fin 64 → EReal := mat (r := 512) (c := 64) (m ((c : Thread nD τ).loc main_arg2))
abbrev mW1 (c : Dev nD) : Fin 64 → Fin 64 → EReal := mat (r := 64) (c := 64) (m ((c : Thread nD τ).loc main_arg3))
abbrev vB1 (c : Dev nD) : Fin 64 → EReal := vec (n := 64) (m ((c : Thread nD τ).loc main_arg4))
abbrev mW2 (c : Dev nD) : Fin 64 → Fin 64 → EReal := mat (r := 64) (c := 64) (m ((c : Thread nD τ).loc main_arg5))
abbrev vB2 (c : Dev nD) : Fin 64 → EReal := vec (n := 64) (m ((c : Thread nD τ).loc main_arg6))

/-- The first scratch array is `P1 = relu(X · W0) · W1`. -/
theorem P1_eq (c : Dev nD) (l : Fin 10000) (j : Fin 64) : P1 m c (ix2 l j) = p1 (mX m c) (mW0 m c) (mW1 m c) l j := by
  unfold P1
  have hl : loc1 (ix2 l j) = ix2 (⟨l.val % 2000, Nat.mod_lt _ (by decide)⟩ : Fin 2000) j := rfl
  have hpt : (pt1 (ix2 l j)).val < 5 := by show l.val / 2000 < 5; have := l.isLt; omega
  have hr : l.val = 2000 * (pt1 (ix2 l j)).val + (⟨l.val % 2000, Nat.mod_lt _ (by decide)⟩ : Fin 2000).val := by
    show l.val = 2000 * (l.val / 2000) + l.val % 2000; omega
  rw [hl, pay1_at]
  unfold p1 h0
  refine Finset.sum_congr rfl fun i _ => ?_
  rw [blkW1_eq, Finset.sum_congr rfl fun v _ => by rw [blkX_at m c (pt1 (ix2 l j)) hpt _ v l hr, blkW0_eq]]

/-- The second scratch array is `P2 = relu(A · P1 + b1) · W2`. -/
theorem P2_eq (c : Dev nD) (k : Fin 10000) (q : Fin 64) :
    P2 m c (ix2 k q) = p2 (mX m c) (mA m c) (mW0 m c) (mW1 m c) (vB1 m c) (mW2 m c) k q := by
  unfold P2
  have hl : loc2 (ix2 k q) = ix2 (⟨k.val % 400, Nat.mod_lt _ (by decide)⟩ : Fin 400) q := rfl
  have hpt : 5 ≤ (pt2 (ix2 k q)).val ∧ (pt2 (ix2 k q)).val < 30 := by
    show 5 ≤ 5 + k.val / 400 ∧ 5 + k.val / 400 < 30; have := k.isLt; omega
  have hr : k.val = 400 * ((pt2 (ix2 k q)).val - 5) + (⟨k.val % 400, Nat.mod_lt _ (by decide)⟩ : Fin 400).val := by
    show k.val = 400 * (5 + k.val / 400 - 5) + k.val % 400; omega
  rw [hl, pay2_at]
  unfold p2 kerH1
  refine Finset.sum_congr rfl fun j _ => ?_
  rw [blkW2_eq, blkB1_at, Finset.sum_congr rfl fun l _ => by rw [blkA_at2 m c (pt2 (ix2 k q)) hpt _ l k hr, P1_eq]]

/-- The block a phase-three point `t` stores is rows `400 (t - 30) …` of `A · P2 + b2`. -/
theorem outAt_eq (c : Dev nD) (t : Fin cfg0.N) (ht : 30 ≤ t.val) (p : Fin 400) (q : Fin 64) (r : Fin 10000)
    (hr : r.val = 400 * (t.val - 30) + p.val) :
    outAt m c t (ix2 p q) = kerOut (mX m c) (mA m c) (mW0 m c) (mW1 m c) (vB1 m c) (mW2 m c) (vB2 m c) r q := by
  unfold outAt
  rw [out_at]
  unfold kerOut
  rw [blkB2_at, Finset.sum_congr rfl fun k _ => by rw [blkA_at3 m c t ht p k r hr, P2_eq]]

/-- What the result array is shown to hold: `A · P2 + b2` of the argument arrays, index by index. -/
def Gout (c : Dev nD) : S10000x64.Idx → EReal := fun i =>
  kerOut (mX m c) (mA m c) (mW0 m c) (mW1 m c) (vB1 m c) (mW2 m c) (vB2 m c) (i 0) (i 1)

theorem out_blk (c : Dev nD) (t : Fin cfg0.N) (ht : 30 ≤ t.val) (y : S400x64.Idx) (i : S10000x64.Idx)
    (h0 : (i 0).val = 400 * (t.val - 30) + (y 0).val) (h1 : (i 1).val = (y 1).val) : outAt m c t y = Gout m c i := by
  obtain ⟨p, q, rfl⟩ : ∃ (p : Fin 400) (q : Fin 64), y = ix2 p q := ⟨y 0, y 1, eq_ix2 y⟩
  have e1 : i 1 = q := Fin.ext h1
  unfold Gout
  rw [e1]
  exact outAt_eq m c t ht p q (i 0) h0

/-! ## The stored blocks are the result read through the result's window; they cover it -/

theorem flushed_eq (c : Dev nD) (t : Fin cfg0.N) (hf : (cfg0.win 7).flush t = true) :
    (dats m 0 c).flushed 7 t = ((cfg0.win 7).blk t).view.read (Elt Ideal) (Gout m c) := by
  have ht : 30 ≤ t.val := (flush7_iff t).mp hf
  show (cfg0.win 7).cut (grid0.coords t) ((dats m 0 c).after 7 t) = _
  rw [after_7]
  funext y
  show outAt m c t y = Gout m c (((cfg0.win 7).blk t).view.emb y)
  refine out_blk m c t ht y _ ?_ ?_
  · rw [emb7_val, if_neg (by omega)]; rfl
  · rw [emb7_val]; show 0 + (y 1).val = (y 1).val; omega

theorem xsize7 : ∀ (t : Fin cfg0.N) (a : Fin 2), (cfg0.win 7).xsize (grid0.coords t) a = (![400, 64] : Fin 2 → Nat) a := by decide +kernel

theorem cover_at (i : S10000x64.Idx) (t : Fin cfg0.N) (ht : t.val = 30 + (i 0).val / 400) : i ∈ ((cfg0.win 7).blk t).view.set := by
  have h0 : (i 0 : Nat) < 10000 := idx2_lt0 i
  have h1 : (i 1 : Nat) < 64 := idx2_lt1 i
  show i ∈ ((View.whole main_v0).slice (win0_7.rect t)).set
  rw [View.set_slice_whole, Rect.mem_set_unit]
  intro a
  match a with
  | ⟨0, _⟩ =>
    show (cfg0.win 7).index t 0 * (cfg0.win 7).size 0 ≤ (i 0 : Nat) ∧ (i 0 : Nat) < (cfg0.win 7).index t 0 * (cfg0.win 7).size 0 + (cfg0.win 7).xsize (grid0.coords t) 0
    rw [idx7_eq, xsize7, if_neg (by omega)]
    show 400 * (t.val - 30) ≤ (i 0).val ∧ (i 0).val < 400 * (t.val - 30) + 400
    omega
  | ⟨1, _⟩ =>
    show (cfg0.win 7).index t 1 * (cfg0.win 7).size 1 ≤ (i 1 : Nat) ∧ (i 1 : Nat) < (cfg0.win 7).index t 1 * (cfg0.win 7).size 1 + (cfg0.win 7).xsize (grid0.coords t) 1
    rw [idx7_eq, xsize7]
    show 0 ≤ (i 1).val ∧ (i 1).val < 0 + 64
    omega

theorem cover (i : S10000x64.Idx) : ∃ t : Fin cfg0.N, (cfg0.win 7).flush t = true ∧ i ∈ ((cfg0.win 7).blk t).view.set := by
  have h0 : (i 0 : Nat) < 10000 := idx2_lt0 i
  have hN := N55
  exact ⟨⟨30 + (i 0).val / 400, by omega⟩, (flush7_iff _).mpr (by show 30 ≤ 30 + (i 0).val / 400; omega), cover_at i _ rfl⟩

/-- THE VALUE: the result array the kernel leaves is `A · P2 + b2` of the argument arrays. -/
theorem final_out (c : Dev nD) : (dats m 0 c).arrAt 7 cfg0.N = Gout m c :=
  (dats m 0 c).arrAt_eq_of_cover 7 (Gout m c) (fun t hf => flushed_eq m c t hf) cover

/-- The kernel's run with the result named and the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final_out m c), ((h c).1 0).trans (((dats m 0 c).arrAt_in 0 rfl _).trans (V_main_arg0 m c)),
      ((h c).1 1).trans (((dats m 0 c).arrAt_in 1 rfl _).trans (V_main_arg1 m c)),
      ((h c).1 2).trans (((dats m 0 c).arrAt_in 2 rfl _).trans (V_main_arg2 m c)),
      ((h c).1 3).trans (((dats m 0 c).arrAt_in 3 rfl _).trans (V_main_arg3 m c)),
      ((h c).2.2 main_arg4 (by rw [Finset.sdiff_empty]; exact Pipeline.mem_restRefs_of main_arg4 (by decide) (by decide))).trans (V_main_arg4 m c),
      ((h c).1 5).trans (((dats m 0 c).arrAt_in 5 rfl _).trans (V_main_arg5 m c)),
      ((h c).2.2 main_arg6 (by rw [Finset.sdiff_empty]; exact Pipeline.mem_restRefs_of main_arg6 (by decide) (by decide))).trans (V_main_arg6 m c)⟩) (run_main m ρ)

end Cert.Proof.KernelIdeal

end
-- ==== Proof.RefValue.lean ====
/-
  The reference read index by index at the extended reals: its result at `(r, q)` is `((A · H1) · W2 + b2)(r, q)` with
  `H1 = relu((A · H0) · W1 + b1)` and `H0 = relu(X · W0)` — each matrix product the plain sum over the contracted
  index, each `relu` the maximum with zero, each bias broadcast along the rows.
-/
import proofs.«125068_g44581760532749_cont_8to1c4_205_3_alg».proof.Proof.Gen.ReferenceIdeal.Read
import proofs.«125068_g44581760532749_cont_8to1c4_205_3_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Proof.Spec

variable (x0 : (⟨S10000x512, .f32⟩ : BufTy).Contents (Elt Ideal)) (x1 : (⟨S10000x10000, .f32⟩ : BufTy).Contents (Elt Ideal))
  (x2 : (⟨S512x64, .f32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal))

/-- The first layer: `relu(X · W0)`. -/
theorem v1_eq (i : S10000x64.Idx) :
    val_main_v1 (F := Ideal) x0 x2 i = h0 (mat (r := 10000) (c := 512) x0) (mat (r := 512) (c := 64) x2) (i 0) (i 1) := by
  rw [val_main_v1_apply, val_main_v0_apply, val_main_call0_v0_apply, val_main_call0_cst_apply]
  have el : ∀ k, lidx_main_v0 i k = ix2 (i 0) k := fun k => funext fun a => match a with | ⟨0, _⟩ => rfl | ⟨1, _⟩ => rfl
  have er : ∀ k, ridx_main_v0 i k = ix2 k (i 1) := fun k => funext fun a => match a with | ⟨0, _⟩ => rfl | ⟨1, _⟩ => rfl
  simp only [el, er, Ideal.maximumf_def, Ideal.ofBits_def, Ideal.ofBits_zero_f32]
  rfl

/-- The hidden layer: `relu((A · H0) · W1 + b1)`. -/
theorem v7_eq (i : S10000x64.Idx) :
    val_main_v7 (F := Ideal) x0 x1 x2 x3 x4 i
      = refH1 (mat (r := 10000) (c := 512) x0) (mat (r := 10000) (c := 10000) x1) (mat (r := 512) (c := 64) x2)
          (mat (r := 64) (c := 64) x3) (vec (n := 64) x4) (i 0) (i 1) := by
  rw [val_main_v7_apply, val_main_v6_apply, val_main_v3_apply, val_main_v5_apply, val_main_v4_apply,
    val_main_call1_v0_apply, val_main_call1_cst_apply]
  have e2 : ∀ j : S10000x64.Idx, val_main_v2 (F := Ideal) x0 x1 x2 j
      = ∑ l : Fin 10000, x1 (ix2 (j 0) l) * h0 (mat (r := 10000) (c := 512) x0) (mat (r := 512) (c := 64) x2) l (j 1) := fun j => by
    rw [val_main_v2_apply]
    refine Finset.sum_congr rfl fun l _ => ?_
    rw [v1_eq]
    have el : lidx_main_v2 j l = ix2 (j 0) l := funext fun a => match a with | ⟨0, _⟩ => rfl | ⟨1, _⟩ => rfl
    rw [el]; rfl
  have er : ∀ k, ridx_main_v3 i k = ix2 k (i 1) := fun k => funext fun a => match a with | ⟨0, _⟩ => rfl | ⟨1, _⟩ => rfl
  have eb : idx_main_v4 (idx_main_v5 i) = ix1 (i 1) := funext fun a => match a with | ⟨0, _⟩ => rfl
  simp only [e2, er, eb, Ideal.maximumf_def, Ideal.addf_def, Ideal.ofBits_def, Ideal.ofBits_zero_f32]
  rfl

/-- The result: `(A · H1) · W2 + b2`. -/
theorem v12_eq (i : S10000x64.Idx) :
    val_main_v12 (F := Ideal) x0 x1 x2 x3 x4 x5 x6 i
      = refOut (mat (r := 10000) (c := 512) x0) (mat (r := 10000) (c := 10000) x1) (mat (r := 512) (c := 64) x2)
          (mat (r := 64) (c := 64) x3) (vec (n := 64) x4) (mat (r := 64) (c := 64) x5) (vec (n := 64) x6) (i 0) (i 1) := by
  rw [val_main_v12_apply, val_main_v9_apply, val_main_v11_apply, val_main_v10_apply]
  have e8 : ∀ j : S10000x64.Idx, val_main_v8 (F := Ideal) x0 x1 x2 x3 x4 j
      = ∑ k : Fin 10000, x1 (ix2 (j 0) k) * refH1 (mat (r := 10000) (c := 512) x0) (mat (r := 10000) (c := 10000) x1)
          (mat (r := 512) (c := 64) x2) (mat (r := 64) (c := 64) x3) (vec (n := 64) x4) k (j 1) := fun j => by
    rw [val_main_v8_apply]
    refine Finset.sum_congr rfl fun k _ => ?_
    rw [v7_eq]
    have el : lidx_main_v8 j k = ix2 (j 0) k := funext fun a => match a with | ⟨0, _⟩ => rfl | ⟨1, _⟩ => rfl
    rw [el]; rfl
  have er : ∀ k, ridx_main_v9 i k = ix2 k (i 1) := fun k => funext fun a => match a with | ⟨0, _⟩ => rfl | ⟨1, _⟩ => rfl
  have eb : idx_main_v10 (idx_main_v11 i) = ix1 (i 1) := funext fun a => match a with | ⟨0, _⟩ => rfl
  simp only [e8, er, eb, Ideal.addf_def]
  rfl

end Cert.ReferenceIdeal.RefValue

end
-- ==== Proof.Finite.lean ====
/-
  The precondition read back: every entry of every argument array is a real number.
  The printed predicate is the conjunction, array by array, of `all(|x| < +∞)`; a conjunction of bits that is 1 has
  every bit 1, an `all` that is 1 has a 1 at every index, and `|x| < +∞` on the extended reals says `x` is neither
  infinity.
-/
import proofs.«125068_g44581760532749_cont_8to1c4_205_3_alg».proof.Pre_finite_inputs
import proofs.«125068_g44581760532749_cont_8to1c4_205_3_alg».proof.Proof.Gen.Pre_finite_inputs
import proofs.«125068_g44581760532749_cont_8to1c4_205_3_alg».proof.Proof.Spec
import Idealize.ShloMosaic.Lib.ReduceAll
import Idealize.ShloMosaic.Lib.ValueIdx
import Idealize.ShloMosaic.PureOps.Ideal

noncomputable section

namespace Cert.Proof.Finite

open Cert.Pre_finite_inputs Idealize.ShloMosaic Idealize.ShloMosaic.ValueIdx Cert.Proof.Spec

instance : Subsingleton S_.Idx := ⟨fun a b => funext fun d => d.elim0⟩

/-- `|x| < +∞` on the extended reals: `x` is neither infinity. -/
theorem isFin_of_lt_inf (x : EReal) (h : Ideal.cmp .olt (max x (-x)) (Ideal.ofBits .f32 0x7F800000#32) = 1#1) : IsFin x := by
  have htop : Ideal.ofBits .f32 0x7F800000#32 = ⊤ := by simp [Ideal.ofBits, Ideal.ieee]
  rw [htop] at h
  have h' : BitVec.ofBool (decide (max x (-x) < ⊤)) = 1#1 := h
  have hlt : max x (-x) < ⊤ := by
    by_contra hn
    rw [decide_eq_false hn] at h'
    exact absurd h' (by decide)
  rw [max_lt_iff] at hlt
  refine ⟨ne_of_lt hlt.1, fun hb => ?_⟩
  subst hb
  simp at hlt

/-- The precondition gives finiteness of every entry of the seven argument arrays. -/
theorem finite_of_pre (X : FVec Ideal S10000x512 .f32) (A : FVec Ideal S10000x10000 .f32) (W0 : FVec Ideal S512x64 .f32)
    (W1 : FVec Ideal S64x64 .f32) (b1 : FVec Ideal S64 .f32) (W2 : FVec Ideal S64x64 .f32) (b2 : FVec Ideal S64 .f32)
    (h : fn (F := Ideal) X A W0 W1 b1 W2 b2 = fun _ => 1#1) :
    (∀ i, IsFin (X i)) ∧ (∀ i, IsFin (A i)) ∧ (∀ i, IsFin (W0 i)) ∧ (∀ i, IsFin (W1 i)) ∧ (∀ i, IsFin (b1 i))
      ∧ (∀ i, IsFin (W2 i)) ∧ (∀ i, IsFin (b2 i)) := by
  have h0 := congrFun h ix0
  dsimp only [fn, fn_part1] at h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨fun i => isFin_of_lt_inf (X i) (Host.reduce_andi_all _ _ _ _ ix0 e0 i),
    fun i => isFin_of_lt_inf (A i) (Host.reduce_andi_all _ _ _ _ ix0 e1 i),
    fun i => isFin_of_lt_inf (W0 i) (Host.reduce_andi_all _ _ _ _ ix0 e2 i),
    fun i => isFin_of_lt_inf (W1 i) (Host.reduce_andi_all _ _ _ _ ix0 e3 i),
    fun i => isFin_of_lt_inf (b1 i) (Host.reduce_andi_all _ _ _ _ ix0 e4 i),
    fun i => isFin_of_lt_inf (W2 i) (Host.reduce_andi_all _ _ _ _ ix0 e5 i),
    fun i => isFin_of_lt_inf (b2 i) (Host.reduce_andi_all _ _ _ _ ix0 e6 i)⟩

end Cert.Proof.Finite

end
-- ==== Proof.lean ====
/-
  The claim: a dense two-layer graph-convolution encoder, `out = A · relu(A · relu(X · W0) · W1 + b1) · W2 + b2`, computed
  by one pipelined kernel against the plain array program.
  The kernel keeps two (10000, 64) scratch arrays across its 55 grid points: points 0–4 fill `P1 = relu(X · W0) · W1`
  by blocks of 2000 rows, points 5–29 fill `P2 = relu(A · P1 + b1) · W2` by blocks of 400 rows of A, points 30–54 store
  the blocks of `A · P2 + b2`. The reference associates the other way: `(A · H0) · W1` and `(A · H1) · W2`.
  Frames: each kernel program terminates without fault and leaves its arguments unchanged (the body run once per
  phase at a symbolic point, the scratch arrays carried by an invariant); the reference's frame is its run with the
  result dropped. The idealization rewrote nothing. At the extended reals the two results agree index by index
  because every input entry is a real number (the precondition), and products of real matrices re-associate.
-/
import proofs.«125068_g44581760532749_cont_8to1c4_205_3_alg».proof.Defs
import proofs.«125068_g44581760532749_cont_8to1c4_205_3_alg».proof.Proof.Gen.Kernel
import proofs.«125068_g44581760532749_cont_8to1c4_205_3_alg».proof.Proof.Gen.Kernel.Skeleton
import proofs.«125068_g44581760532749_cont_8to1c4_205_3_alg».proof.Proof.Gen.Kernel.Launch
import proofs.«125068_g44581760532749_cont_8to1c4_205_3_alg».proof.Proof.Gen.Kernel.Points
import proofs.«125068_g44581760532749_cont_8to1c4_205_3_alg».proof.Proof.Gen.Kernel.Frame
import proofs.«125068_g44581760532749_cont_8to1c4_205_3_alg».proof.Proof.Gen.KernelIdeal
import proofs.«125068_g44581760532749_cont_8to1c4_205_3_alg».proof.Proof.Gen.KernelIdeal.Skeleton
import proofs.«125068_g44581760532749_cont_8to1c4_205_3_alg».proof.Proof.Gen.KernelIdeal.Launch
import proofs.«125068_g44581760532749_cont_8to1c4_205_3_alg».proof.Proof.Gen.KernelIdeal.Points
import proofs.«125068_g44581760532749_cont_8to1c4_205_3_alg».proof.Proof.Gen.KernelIdeal.Frame
import proofs.«125068_g44581760532749_cont_8to1c4_205_3_alg».proof.Proof.Gen.ReferenceIdeal
import proofs.«125068_g44581760532749_cont_8to1c4_205_3_alg».proof.Proof.Gen.Pre_finite_inputs
import proofs.«125068_g44581760532749_cont_8to1c4_205_3_alg».proof.Proof.Gen.ReferenceIdeal.Run
import proofs.«125068_g44581760532749_cont_8to1c4_205_3_alg».proof.Proof.Gen.ReferenceIdeal.Read
import proofs.«125068_g44581760532749_cont_8to1c4_205_3_alg».proof.Proof.KernelRun
import proofs.«125068_g44581760532749_cont_8to1c4_205_3_alg».proof.Proof.KernelIdealRun
import proofs.«125068_g44581760532749_cont_8to1c4_205_3_alg».proof.Proof.KernelIdealValue
import proofs.«125068_g44581760532749_cont_8to1c4_205_3_alg».proof.Proof.RefValue
import proofs.«125068_g44581760532749_cont_8to1c4_205_3_alg».proof.Proof.Finite
import proofs.«125068_g44581760532749_cont_8to1c4_205_3_alg».proof.Proof.Spec
import Idealize.ShloMosaic.Adequacy
import Idealize.ShloMosaic.Init

noncomputable section

namespace Cert.Proof

open Idealize.ShloMosaic Idealize.ShloMosaic.ValueIdx Idealize.SL.Sem

/-- The word-level kernel terminates, faults nowhere and leaves its arguments unchanged. -/
theorem frame_k : Cert.frame_Kernel := fun m ρ _ => Cert.Proof.Kernel.frame (F := Bits) m ρ
/-- So does the kernel read at the extended reals. -/
theorem frame_ki : Cert.frame_KernelIdeal := fun m ρ _ => Cert.Proof.KernelIdeal.frame (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote no operation. -/
theorem preserves : Cert.preserves_Kernel_KernelIdeal := trivial

/-- Both programs end with `A · relu(A · relu(X · W0) · W1 + b1) · W2 + b2`: the kernel's result is `A · P2 + b2`, the
    reference's `(A · H1) · W2 + b2`, and for real entries the two are equal. -/
theorem algebraic : Cert.algebraic_KernelIdeal_ReferenceIdeal := by
  intro m ρ m' ρ' hpre hagree
  refine ⟨fun c => Cert.Proof.KernelIdeal.Gout m c, Cert.Proof.KernelIdeal.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v12_eq, a0, a1, a2, a3, a4, a5, a6]
  obtain ⟨fX, fA, fW0, fW1, fb1, fW2, fb2⟩ := Cert.Proof.Finite.finite_of_pre _ _ _ _ _ _ _ (hpre c)
  funext i
  rw [Cert.ReferenceIdeal.RefValue.v12_eq]
  unfold Cert.Proof.KernelIdeal.Gout
  exact (Cert.Proof.Spec.kerOut_eq_refOut (fun l v => fX (ix2 l v)) (fun k l => fA (ix2 k l)) (fun v i => fW0 (ix2 v i))
    (fun i j => fW1 (ix2 i j)) (fun j => fb1 (ix1 j)) (fun j q => fW2 (ix2 j q)) (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
